-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x256x256 : Shape := ⟨4, ![1, 64, 256, 256]⟩
abbrev S1x576x65536 : Shape := ⟨3, ![1, 576, 65536]⟩
abbrev S64x64 : Shape := ⟨2, ![64, 64]⟩
abbrev S_ : Shape := ⟨0, ![]⟩

class Facts : Prop where
  bcast_S_S1x64x256x256 : S_.BroadcastsInDim S1x64x256x256 (![] : Fin 0 → Fin S1x64x256x256.rank)
  reducesTo_S1x64x256x256_S_d0_1_2_3 : S1x64x256x256.ReducesTo [0, 1, 2, 3] S_
  h_S_ : 0 < S_.numel
  bcast_S_S1x576x65536 : S_.BroadcastsInDim S1x576x65536 (![] : Fin 0 → Fin S1x576x65536.rank)
  reducesTo_S1x576x65536_S_d0_1_2 : S1x576x65536.ReducesTo [0, 1, 2] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S1x64x256x256 .f32) (main_arg1 : FVec F S1x576x65536 .f32) (main_arg2 : FVec F S64x64 .f32) : IVec S_ 1 :=
  let main_v0 : FVec F S1x64x256x256 .f32 := Host.absf main_arg0
  let main_cst : FVec F S_ .f32 := constant S_ .f32 0x7F800000#32
  let main_v1 : FVec F S1x64x256x256 .f32 := broadcastInDim S1x64x256x256 ![] bcast_S_S1x64x256x256 main_cst
  let main_v2 : IVec S1x64x256x256 1 := cmpf .olt main_v0 main_v1
  let main_c : IVec S_ 1 := constantI S_ 1 1#1
  let main_v3 : IVec S_ 1 := (fun x v => Host.reduce IntOp.andi x v reducesTo_S1x64x256x256_S_d0_1_2_3 h_S_) main_v2 main_c
  let main_v4 : FVec F S1x576x65536 .f32 := Host.absf main_arg1
  let main_cst_0 : FVec F S_ .f32 := constant S_ .f32 0x7F800000#32
  let main_v5 : FVec F S1x576x65536 .f32 := broadcastInDim S1x576x65536 ![] bcast_S_S1x576x65536 main_cst_0
  let main_v6 : IVec S1x576x65536 1 := cmpf .olt main_v4 main_v5
  let main_c_1 : IVec S_ 1 := constantI S_ 1 1#1
  let main_v7 : IVec S_ 1 := (fun x v => Host.reduce IntOp.andi x v reducesTo_S1x576x65536_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S1x64x256x256 : Shape := ⟨4, ![1, 64, 256, 256]⟩
abbrev S1x576x65536 : Shape := ⟨3, ![1, 576, 65536]⟩
abbrev S64x64 : Shape := ⟨2, ![64, 64]⟩
abbrev S64x256x256 : Shape := ⟨3, ![64, 256, 256]⟩
abbrev S64x9x256x256 : Shape := ⟨4, ![64, 9, 256, 256]⟩
abbrev S4x9x256x256 : Shape := ⟨4, ![4, 9, 256, 256]⟩
abbrev S4x256x256 : Shape := ⟨3, ![4, 256, 256]⟩
abbrev S4x1x256x256 : Shape := ⟨4, ![4, 1, 256, 256]⟩
abbrev S4x1x256 : Shape := ⟨3, ![4, 1, 256]⟩
abbrev S4x255x256 : Shape := ⟨3, ![4, 255, 256]⟩
abbrev S4x256x1 : Shape := ⟨3, ![4, 256, 1]⟩
abbrev S4x256x255 : Shape := ⟨3, ![4, 256, 255]⟩
abbrev S64x65536 : Shape := ⟨2, ![64, 65536]⟩
abbrev S64x8192 : Shape := ⟨2, ![64, 8192]⟩

abbrev nBuf : Space → Nat
  | .hbm => 10
  | .vmem => 11
  | .smem => 0
  | _ => 0

abbrev bufTy : (tb : Table) → Fin (tcTables nBuf tb) → BufTy
  | .hbm, ⟨0, _⟩ => ⟨S1x64x256x256, .f32⟩
  | .hbm, ⟨1, _⟩ => ⟨S1x576x65536, .f32⟩
  | .hbm, ⟨2, _⟩ => ⟨S64x64, .f32⟩
  | .hbm, ⟨3, _⟩ => ⟨S64x256x256, .f32⟩
  | .hbm, ⟨4, _⟩ => ⟨S64x9x256x256, .f32⟩
  | .hbm, ⟨5, _⟩ => ⟨S64x64, .bf16⟩
  | .hbm, ⟨6, _⟩ => ⟨S64x256x256, .bf16⟩
  | .hbm, ⟨7, _⟩ => ⟨S64x65536, .bf16⟩
  | .hbm, ⟨8, _⟩ => ⟨S64x65536, .f32⟩
  | .hbm, ⟨9, _⟩ => ⟨S1x64x256x256, .f32⟩
  | .local _ .vmem, ⟨0, _⟩ => ⟨S4x9x256x256, .f32⟩
  | .local _ .vmem, ⟨1, _⟩ => ⟨S4x9x256x256, .f32⟩
  | .local _ .vmem, ⟨2, _⟩ => ⟨S4x256x256, .f32⟩
  | .local _ .vmem, ⟨3, _⟩ => ⟨S4x256x256, .f32⟩
  | .local _ .vmem, ⟨4, _⟩ => ⟨S4x256x256, .bf16⟩
  | .local _ .vmem, ⟨5, _⟩ => ⟨S4x256x256, .bf16⟩
  | .local _ .vmem, ⟨6, _⟩ => ⟨S64x8192, .bf16⟩
  | .local _ .vmem, ⟨7, _⟩ => ⟨S64x8192, .bf16⟩
  | .local _ .vmem, ⟨8, _⟩ => ⟨S64x64, .bf16⟩
  | .local _ .vmem, ⟨9, _⟩ => ⟨S64x8192, .f32⟩
  | .local _ .vmem, ⟨10, _⟩ => ⟨S64x8192, .f32⟩
  | _, _ => ⟨S1x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x9x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x64x256x256_S64x256x256 : S1x64x256x256.ShapeCasts S64x256x256
  shapeCasts_S1x576x65536_S64x9x256x256 : S1x576x65536.ShapeCasts S64x9x256x256
  bitsLt_bf16_f32 : FTy.bits .bf16 < FTy.bits .f32
  inb_S4x9x256x256_S4x9x256x256_0_0_0_0 : ∀ a, (![0, 0, 0, 0] : Fin 4 → Nat) a + S4x9x256x256.size a ≤ S4x9x256x256.size a
  h_S4x9x256x256 : 0 < S4x9x256x256.numel
  shapeCasts_S4x9x256x256_S4x9x256x256 : S4x9x256x256.ShapeCasts S4x9x256x256
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  slices_S4x9x256x256_o0_0_0_0_S4x1x256x256 : S4x9x256x256.Slices ![0, 0, 0, 0] S4x1x256x256
  shapeCasts_S4x1x256x256_S4x256x256 : S4x1x256x256.ShapeCasts S4x256x256
  slices_S4x256x256_o0_1_0_S4x255x256 : S4x256x256.Slices ![0, 1, 0] S4x255x256
  concatenates_S4x255x256_S4x1x256_S4x256x256_d1 : Shape.Concatenates [S4x255x256, S4x1x256] S4x256x256 1
  slices_S4x256x256_o0_0_1_S4x256x255 : S4x256x256.Slices ![0, 0, 1] S4x256x255
  concatenates_S4x256x255_S4x256x1_S4x256x256_d2 : Shape.Concatenates [S4x256x255, S4x256x1] S4x256x256 2
  slices_S4x9x256x256_o0_1_0_0_S4x1x256x256 : S4x9x256x256.Slices ![0, 1, 0, 0] S4x1x256x256
  slices_S4x9x256x256_o0_2_0_0_S4x1x256x256 : S4x9x256x256.Slices ![0, 2, 0, 0] S4x1x256x256
  slices_S4x256x256_o0_0_0_S4x256x255 : S4x256x256.Slices ![0, 0, 0] S4x256x255
  concatenates_S4x256x1_S4x256x255_S4x256x256_d2 : Shape.Concatenates [S4x256x1, S4x256x255] S4x256x256 2
  slices_S4x9x256x256_o0_3_0_0_S4x1x256x256 : S4x9x256x256.Slices ![0, 3, 0, 0] S4x1x256x256
  slices_S4x9x256x256_o0_4_0_0_S4x1x256x256 : S4x9x256x256.Slices ![0, 4, 0, 0] S4x1x256x256
  slices_S4x9x256x256_o0_5_0_0_S4x1x256x256 : S4x9x256x256.Slices ![0, 5, 0, 0] S4x1x256x256
  slices_S4x9x256x256_o0_6_0_0_S4x1x256x256 : S4x9x256x256.Slices ![0, 6, 0, 0] S4x1x256x256
  slices_S4x256x256_o0_0_0_S4x255x256 : S4x256x256.Slices ![0, 0, 0] S4x255x256
  concatenates_S4x1x256_S4x255x256_S4x256x256_d1 : Shape.Concatenates [S4x1x256, S4x255x256] S4x256x256 1
  slices_S4x9x256x256_o0_7_0_0_S4x1x256x256 : S4x9x256x256.Slices ![0, 7, 0, 0] S4x1x256x256
  slices_S4x9x256x256_o0_8_0_0_S4x1x256x256 : S4x9x256x256.Slices ![0, 8, 0, 0] S4x1x256x256
  packedbf16_S4x256x256_S4x256x256_0_0_0 : (Rect.unit (s := S4x256x256) ![0, 0, 0] S4x256x256.size inb_S4x256x256_S4x256x256_0_0_0).PackedRows (EltTy.packing .bf16)
  shapeCasts_S64x256x256_S64x65536 : S64x256x256.ShapeCasts S64x65536
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x65536_S1x64x256x256 : S64x65536.ShapeCasts S1x64x256x256
  dot_S64x64_S64x8192_S64x8192_0_0_1_1_n_n_wf : DotDims.WF S64x64 S64x8192 S64x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x9x256x256.size a ≤ S64x9x256x256.size a
  hwx0_0 : ∀ i : grid0.Coords, EltTy.bits .f32 = 32 ∨ (Rect.block (s := S64x9x256x256) S4x9x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S64x256x256.size a
  hwx0_1 : ∀ i : grid0.Coords, EltTy.bits .f32 = 32 ∨ (Rect.block (s := S64x256x256) S4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S64x256x256.size a
  hwx0_2 : ∀ i : grid0.Coords, EltTy.bits .bf16 = 32 ∨ (Rect.block (s := S64x256x256) S4x256x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x65536.size a
  hwx1_0 : ∀ i : grid1.Coords, EltTy.bits .bf16 = 32 ∨ (Rect.block (s := S64x65536) S64x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .bf16 = 32 ∨ (Rect.block (s := S64x64) S64x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x8192.size a ≤ S64x65536.size a
  hwx1_2 : ∀ i : grid1.Coords, EltTy.bits .f32 = 32 ∨ (Rect.block (s := S64x65536) S64x8192.size (cc1_transform_2 i) (hinb1_2 i)).WholeWords (EltTy.packing .f32)

variable [Facts₀]

def dot_S64x64_S64x8192_S64x8192_0_0_1_1_n_n : DotDims S64x64 S64x8192 S64x8192 where
  lhsContracting := [0]
  rhsContracting := [0]
  lhsNonContracting := [1]
  rhsNonContracting := [1]
  lhsBatch := []
  rhsBatch := []
  wf := dot_S64x64_S64x8192_S64x8192_0_0_1_1_n_n_wf

abbrev win0_0 : Pipeline.Window sig grid0 :=
  Pipeline.Window.ofSpec (Memref.whole main_v1) S4x9x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x64x256x256 : Shape := ⟨4, ![1, 64, 256, 256]⟩
abbrev S1x576x65536 : Shape := ⟨3, ![1, 576, 65536]⟩
abbrev S64x64 : Shape := ⟨2, ![64, 64]⟩
abbrev S_ : Shape := ⟨0, ![]⟩
abbrev S1x64x258x258 : Shape := ⟨4, ![1, 64, 258, 258]⟩
abbrev S1x64x1x256x256 : Shape := ⟨5, ![1, 64, 1, 256, 256]⟩
abbrev S1x64x9x256x256 : Shape := ⟨5, ![1, 64, 9, 256, 256]⟩
abbrev S1x64x3x3x256x256 : Shape := ⟨6, ![1, 64, 3, 3, 256, 256]⟩
abbrev S1x64x1x1x256x256 : Shape := ⟨6, ![1, 64, 1, 1, 256, 256]⟩
abbrev S1 : Shape := ⟨1, ![1]⟩
abbrev S2 : Shape := ⟨1, ![2]⟩
abbrev S64x65536 : Shape := ⟨2, ![64, 65536]⟩

abbrev nBuf : Space → Nat
  | .hbm => 106
  | .vmem => 0
  | .smem => 0
  | _ => 0

abbrev bufTy : (tb : Table) → Fin (tcTables nBuf tb) → BufTy
  | .hbm, ⟨0, _⟩ => ⟨S1x64x256x256, .f32⟩
  | .hbm, ⟨1, _⟩ => ⟨S1x576x65536, .f32⟩
  | .hbm, ⟨2, _⟩ => ⟨S64x64, .f32⟩
  | .hbm, ⟨3, _⟩ => ⟨S_, .i32⟩
  | .hbm, ⟨4, _⟩ => ⟨S_, .f32⟩
  | .hbm, ⟨5, _⟩ => ⟨S1x64x258x258, .f32⟩
  | .hbm, ⟨6, _⟩ => ⟨S1x64x256x256, .f32⟩
  | .hbm, ⟨7, _⟩ => ⟨S1x64x256x256, .f32⟩
  | .hbm, ⟨8, _⟩ => ⟨S1x64x256x256, .f32⟩
  | .hbm, ⟨9, _⟩ => ⟨S1x64x256x256, .f32⟩
  | .hbm, ⟨10, _⟩ => ⟨S1x64x256x256, .f32⟩
  | .hbm, ⟨11, _⟩ => ⟨S1x64x256x256, .f32⟩
  | .hbm, ⟨12, _⟩ => ⟨S1x64x256x256, .f32⟩
  | .hbm, ⟨13, _⟩ => ⟨S1x64x256x256, .f32⟩
  | .hbm, ⟨14, _⟩ => ⟨S1x64x256x256, .f32⟩
  | .hbm, ⟨15, _⟩ => ⟨S1x64x1x256x256, .f32⟩
  | .hbm, ⟨16, _⟩ => ⟨S1x64x1x256x256, .f32⟩
  | .hbm, ⟨17, _⟩ => ⟨S1x64x1x256x256, .f32⟩
  | .hbm, ⟨18, _⟩ => ⟨S1x64x1x256x256, .f32⟩
  | .hbm, ⟨19, _⟩ => ⟨S1x64x1x256x256, .f32⟩
  | .hbm, ⟨20, _⟩ => ⟨S1x64x1x256x256, .f32⟩
  | .hbm, ⟨21, _⟩ => ⟨S1x64x1x256x256, .f32⟩
  | .hbm, ⟨22, _⟩ => ⟨S1x64x1x256x256, .f32⟩
  | .hbm, ⟨23, _⟩ => ⟨S1x64x1x256x256, .f32⟩
  | .hbm, ⟨24, _⟩ => ⟨S1x64x9x256x256, .f32⟩
  | .hbm, ⟨25, _⟩ => ⟨S1x576x65536, .f32⟩
  | .hbm, ⟨26, _⟩ => ⟨S1x576x65536, .f32⟩
  | .hbm, ⟨27, _⟩ => ⟨S1x64x3x3x256x256, .f32⟩
  | .hbm, ⟨28, _⟩ => ⟨S_, .f32⟩
  | .hbm, ⟨29, _⟩ => ⟨S1x64x258x258, .f32⟩
  | .hbm, ⟨30, _⟩ => ⟨S1x64x1x1x256x256, .f32⟩
  | .hbm, ⟨31, _⟩ => ⟨S1x64x256x256, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x64x258x258, .f32⟩
  | .hbm, ⟨38, _⟩ => ⟨S1x64x1x1x256x256, .f32⟩
  | .hbm, ⟨39, _⟩ => ⟨S1x64x256x256, .f32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S2, .i32⟩
  | .hbm, ⟨45, _⟩ => ⟨S1x64x258x258, .f32⟩
  | .hbm, ⟨46, _⟩ => ⟨S1x64x1x1x256x256, .f32⟩
  | .hbm, ⟨47, _⟩ => ⟨S1x64x256x256, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S1x64x258x258, .f32⟩
  | .hbm, ⟨54, _⟩ => ⟨S1x64x1x1x256x256, .f32⟩
  | .hbm, ⟨55, _⟩ => ⟨S1x64x256x256, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S1x64x258x258, .f32⟩
  | .hbm, ⟨62, _⟩ => ⟨S1x64x1x1x256x256, .f32⟩
  | .hbm, ⟨63, _⟩ => ⟨S1x64x256x256, .f32⟩
  | .hbm, ⟨64, _⟩ => ⟨S_, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S2, .i32⟩
  | .hbm, ⟨69, _⟩ => ⟨S1x64x258x258, .f32⟩
  | .hbm, ⟨70, _⟩ => ⟨S1x64x1x1x256x256, .f32⟩
  | .hbm, ⟨71, _⟩ => ⟨S1x64x256x256, .f32⟩
  | .hbm, ⟨72, _⟩ => ⟨S_, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S2, .i32⟩
  | .hbm, ⟨77, _⟩ => ⟨S1x64x258x258, .f32⟩
  | .hbm, ⟨78, _⟩ => ⟨S1x64x1x1x256x256, .f32⟩
  | .hbm, ⟨79, _⟩ => ⟨S1x64x256x256, .f32⟩
  | .hbm, ⟨80, _⟩ => ⟨S_, .i32⟩
  | .hbm, ⟨81, _⟩ => ⟨S1, .i32⟩
  | .hbm, ⟨82, _⟩ => ⟨S_, .i32⟩
  | .hbm, ⟨83, _⟩ => ⟨S1, .i32⟩
  | .hbm, ⟨84, _⟩ => ⟨S2, .i32⟩
  | .hbm, ⟨85, _⟩ => ⟨S1x64x258x258, .f32⟩
  | .hbm, ⟨86, _⟩ => ⟨S1x64x1x1x256x256, .f32⟩
  | .hbm, ⟨87, _⟩ => ⟨S1x64x256x256, .f32⟩
  | .hbm, ⟨88, _⟩ => ⟨S_, .i32⟩
  | .hbm, ⟨89, _⟩ => ⟨S1, .i32⟩
  | .hbm, ⟨90, _⟩ => ⟨S_, .i32⟩
  | .hbm, ⟨91, _⟩ => ⟨S1, .i32⟩
  | .hbm, ⟨92, _⟩ => ⟨S2, .i32⟩
  | .hbm, ⟨93, _⟩ => ⟨S1x64x258x258, .f32⟩
  | .hbm, ⟨94, _⟩ => ⟨S1x64x1x1x256x256, .f32⟩
  | .hbm, ⟨95, _⟩ => ⟨S1x64x256x256, .f32⟩
  | .hbm, ⟨96, _⟩ => ⟨S_, .i32⟩
  | .hbm, ⟨97, _⟩ => ⟨S1, .i32⟩
  | .hbm, ⟨98, _⟩ => ⟨S_, .i32⟩
  | .hbm, ⟨99, _⟩ => ⟨S1, .i32⟩
  | .hbm, ⟨100, _⟩ => ⟨S2, .i32⟩
  | .hbm, ⟨101, _⟩ => ⟨S1x64x258x258, .f32⟩
  | .hbm, ⟨102, _⟩ => ⟨S1x64x256x256, .f32⟩
  | .hbm, ⟨103, _⟩ => ⟨S64x65536, .f32⟩
  | .hbm, ⟨104, _⟩ => ⟨S64x65536, .f32⟩
  | .hbm, ⟨105, _⟩ => ⟨S1x64x256x256, .f32⟩
  | _, _ => ⟨S1x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_0 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_c_10 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_12 : Ref sig .tc := ⟨.hbm, 80, rfl⟩
abbrev main_v62 : Ref sig .tc := ⟨.hbm, 81, rfl⟩
abbrev main_c_13 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_14 : Ref sig .tc := ⟨.hbm, 88, rfl⟩
abbrev main_v68 : Ref sig .tc := ⟨.hbm, 89, rfl⟩
abbrev main_c_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_16 : Ref sig .tc := ⟨.hbm, 96, rfl⟩
abbrev main_v74 : Ref sig .tc := ⟨.hbm, 97, rfl⟩
abbrev main_c_17 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]

class Facts₀ : Prop where
  pads_S1x64x256x256_S1x64x258x258_000_000_110_110 : S1x64x256x256.Pads (![0, 0, 1, 1] : Fin 4 → Nat) ![0, 0, 1, 1] ![0, 0, 0, 0] S1x64x258x258
  h_S_ : 0 < S_.numel
  slices_S1x64x258x258_S1x64x256x256_0_0_0_0 : S1x64x258x258.Slices ![0, 0, 0, 0] S1x64x256x256
  slices_S1x64x258x258_S1x64x256x256_0_0_0_1 : S1x64x258x258.Slices ![0, 0, 0, 1] S1x64x256x256
  slices_S1x64x258x258_S1x64x256x256_0_0_0_2 : S1x64x258x258.Slices ![0, 0, 0, 2] S1x64x256x256
  slices_S1x64x258x258_S1x64x256x256_0_0_1_0 : S1x64x258x258.Slices ![0, 0, 1, 0] S1x64x256x256
  slices_S1x64x258x258_S1x64x256x256_0_0_1_1 : S1x64x258x258.Slices ![0, 0, 1, 1] S1x64x256x256
  slices_S1x64x258x258_S1x64x256x256_0_0_1_2 : S1x64x258x258.Slices ![0, 0, 1, 2] S1x64x256x256
  slices_S1x64x258x258_S1x64x256x256_0_0_2_0 : S1x64x258x258.Slices ![0, 0, 2, 0] S1x64x256x256
  slices_S1x64x258x258_S1x64x256x256_0_0_2_1 : S1x64x258x258.Slices ![0, 0, 2, 1] S1x64x256x256
  slices_S1x64x258x258_S1x64x256x256_0_0_2_2 : S1x64x258x258.Slices ![0, 0, 2, 2] S1x64x256x256
  bcast_S1x64x256x256_S1x64x1x256x256_0_1_3_4 : S1x64x256x256.BroadcastsInDim S1x64x1x256x256 (![0, 1, 3, 4] : Fin 4 → Fin S1x64x1x256x256.rank)
  concatenates_S1x64x1x256x256_S1x64x1x256x256_S1x64x1x256x256_S1x64x1x256x256_S1x64x1x256x256_S1x64x1x256x256_S1x64x1x256x256_S1x64x1x256x256_S1x64x1x256x256_S1x64x9x256x256_d2 : Shape.Concatenates [S1x64x1x256x256, S1x64x1x256x256, S1x64x1x256x256, S1x64x1x256x256, S1x64x1x256x256, S1x64x1x256x256, S1x64x1x256x256, S1x64x1x256x256, S1x64x1x256x256] S1x64x9x256x256 2
  shapeCasts_S1x64x9x256x256_S1x576x65536 : S1x64x9x256x256.ShapeCasts S1x576x65536
  shapeCasts_S1x576x65536_S1x64x3x3x256x256 : S1x576x65536.ShapeCasts S1x64x3x3x256x256
  bcast_S_S1x64x258x258 : S_.BroadcastsInDim S1x64x258x258 (![] : Fin 0 → Fin S1x64x258x258.rank)
  slices_S1x64x3x3x256x256_S1x64x1x1x256x256_0_0_0_0_0_0 : S1x64x3x3x256x256.Slices ![0, 0, 0, 0, 0, 0] S1x64x1x1x256x256
  shapeCasts_S1x64x1x1x256x256_S1x64x256x256 : S1x64x1x1x256x256.ShapeCasts S1x64x256x256
  bcast_S_S1 : S_.BroadcastsInDim S1 (![] : Fin 0 → Fin S1.rank)
  concatenates_S1_S1_S2_d0 : Shape.Concatenates [S1, S1] S2 0
  slices_S1x64x3x3x256x256_S1x64x1x1x256x256_0_0_0_1_0_0 : S1x64x3x3x256x256.Slices ![0, 0, 0, 1, 0, 0] S1x64x1x1x256x256
  slices_S1x64x3x3x256x256_S1x64x1x1x256x256_0_0_0_2_0_0 : S1x64x3x3x256x256.Slices ![0, 0, 0, 2, 0, 0] S1x64x1x1x256x256
  slices_S1x64x3x3x256x256_S1x64x1x1x256x256_0_0_1_0_0_0 : S1x64x3x3x256x256.Slices ![0, 0, 1, 0, 0, 0] S1x64x1x1x256x256
  slices_S1x64x3x3x256x256_S1x64x1x1x256x256_0_0_1_1_0_0 : S1x64x3x3x256x256.Slices ![0, 0, 1, 1, 0, 0] S1x64x1x1x256x256
  slices_S1x64x3x3x256x256_S1x64x1x1x256x256_0_0_1_2_0_0 : S1x64x3x3x256x256.Slices ![0, 0, 1, 2, 0, 0] S1x64x1x1x256x256
  slices_S1x64x3x3x256x256_S1x64x1x1x256x256_0_0_2_0_0_0 : S1x64x3x3x256x256.Slices ![0, 0, 2, 0, 0, 0] S1x64x1x1x256x256
  slices_S1x64x3x3x256x256_S1x64x1x1x256x256_0_0_2_1_0_0 : S1x64x3x3x256x256.Slices ![0, 0, 2, 1, 0, 0] S1x64x1x1x256x256
  slices_S1x64x3x3x256x256_S1x64x1x1x256x256_0_0_2_2_0_0 : S1x64x3x3x256x256.Slices ![0, 0, 2, 2, 0, 0] S1x64x1x1x256x256
  shapeCasts_S1x64x256x256_S64x65536 : S1x64x256x256.ShapeCasts S64x65536
  shapeCasts_S64x65536_S1x64x256x256 : S64x65536.ShapeCasts S1x64x256x256
  scatter_S1x64x258x258_S2_S1x64x256x256_0123_n_23_0_wf : ScatterDims.WF S1x64x258x258 S2 S1x64x256x256 [0, 1, 2, 3] [] [2, 3] 0
  dot_S64x64_S64x65536_S64x65536_0_0_1_1_n_n_wf : DotDims.WF S64x64 S64x65536 S64x65536 [0] [0] [1] [1] [] []

variable [Facts₀]

def scatter_S1x64x258x258_S2_S1x64x256x256_0123_n_23_0 : ScatterDims S1x64x258x258 S2 S1x64x256x256 where
  updateWindowDims := [0, 1, 2, 3]
  insertedWindowDims := []
  scatterDimsToOperandDims := [2, 3]
  indexVectorDim := 0
  wf := scatter_S1x64x258x258_S2_S1x64x256x256_0123_n_23_0_wf
def dot_S64x64_S64x65536_S64x65536_0_0_1_1_n_n : DotDims S64x64 S64x65536 S64x65536 where
  lhsContracting := [0]
  rhsContracting := [0]
  lhsNonContracting := [1]
  rhsNonContracting := [1]
  lhsBatch := []
  rhsBatch := []
  wf := dot_S64x64_S64x65536_S64x65536_0_0_1_1_n_n_wf

class Facts : Prop extends Facts₀ where

variable [Facts]
-- ==== Proof.KRun.lean ====
/-
  The idealized kernel's run with its result named.

  @main is five segments: two reshapes and a format change on the host, the first launch (the shifted-tap
  products), a reshape, the second launch (the channel mix), a reshape. The frame certificate runs the segments and
  keeps, of the last thread state, only that the arguments are unchanged. The same run also leaves the result buffer
  at the last boundary's contents `W5`: that is stated here, beside the arguments.
-/
import proofs.«123624_j27659589386409_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v6) = W5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.Run

end
-- ==== Proof.Taps.lean ====
/-
  The nine shifted taps.

  A 3×3 neighbourhood sum over a 256×256 plane: tap `(i, j)`, `i j < 3`, read at `(R, C)` is the plane's entry
  `(R + 1 - i, C + 1 - j)` when that lies inside the plane and zero otherwise. A kernel forms the shifted plane
  by cutting one row (or column) off and joining a zero row (or column) at the other end; a fold writes the
  plane, moved by `(i, j)`, into a plane with a one-entry border and reads the interior back. Both are `tapVal`.
-/
import Idealize.ShloMosaic.PureOps.Ideal
import Idealize.ShloMosaic.Lib.ValueIdx
import Idealize.ShloMosaic.Lib.Pipeline.Value

noncomputable section

namespace Cert.Taps

open Idealize.ShloMosaic Idealize.ShloMosaic.ValueIdx

/-- Tap `(i, j)` of the plane `g` at `(R, C)`: `g (R + 1 - i) (C + 1 - j)` inside the plane, zero outside. -/
def tapVal (g : Fin 256 → Fin 256 → EReal) (i j : Nat) (R C : Fin 256) : EReal :=
  if h : (i ≤ R.val + 1 ∧ R.val + 1 < i + 256) ∧ (j ≤ C.val + 1 ∧ C.val + 1 < j + 256) then
    g ⟨R.val + 1 - i, by omega⟩ ⟨C.val + 1 - j, by omega⟩
  else 0

theorem tapVal_mul (g : Fin 256 → Fin 256 → EReal) (x : EReal) (i j : Nat) (R C : Fin 256) :
    tapVal (fun r c => g r c * x) i j R C = tapVal g i j R C * x := by
  unfold tapVal
  split
  · rfl
  · rw [zero_mul]

/-- A tap only reads the plane at the one entry `(R + 1 - i, C + 1 - j)`. -/
theorem tapVal_congr (g g' : Fin 256 → Fin 256 → EReal) (i j : Nat) (R C : Fin 256)
    (h : ∀ r c : Fin 256, r.val + i = R.val + 1 → c.val + j = C.val + 1 → g r c = g' r c) :
    tapVal g i j R C = tapVal g' i j R C := by
  unfold tapVal
  split
  · next hh => exact h _ _ (by show R.val + 1 - i + i = R.val + 1; omega) (by show C.val + 1 - j + j = C.val + 1; omega)
  · rfl

theorem tapVal_real (g : Fin 256 → Fin 256 → EReal) (hg : ∀ r c, ∃ y : ℝ, g r c = (y : EReal)) (i j : Nat) (R C : Fin 256) :
    ∃ y : ℝ, tapVal g i j R C = (y : EReal) := by
  unfold tapVal
  split
  · exact hg _ _
  · exact ⟨0, rfl⟩

/-- The law that joins the two sides: a real factor times the sum of nine real taps, started from zero, is the
    sum, started from zero, of the taps each times the factor. -/
theorem mul_nine (x t0 t1 t2 t3 t4 t5 t6 t7 t8 : EReal) (hx : ∃ y : ℝ, x = (y : EReal))
    (h0 : ∃ y : ℝ, t0 = (y : EReal)) (h1 : ∃ y : ℝ, t1 = (y : EReal)) (h2 : ∃ y : ℝ, t2 = (y : EReal))
    (h3 : ∃ y : ℝ, t3 = (y : EReal)) (h4 : ∃ y : ℝ, t4 = (y : EReal)) (h5 : ∃ y : ℝ, t5 = (y : EReal))
    (h6 : ∃ y : ℝ, t6 = (y : EReal)) (h7 : ∃ y : ℝ, t7 = (y : EReal)) (h8 : ∃ y : ℝ, t8 = (y : EReal)) :
    x * (((((((((0 + t0) + t1) + t2) + t3) + t4) + t5) + t6) + t7) + t8)
      = ((((((((0 + t0 * x) + t1 * x) + t2 * x) + t3 * x) + t4 * x) + t5 * x) + t6 * x) + t7 * x) + t8 * x := by
  obtain ⟨x, rfl⟩ := hx
  obtain ⟨t0, rfl⟩ := h0; obtain ⟨t1, rfl⟩ := h1; obtain ⟨t2, rfl⟩ := h2
  obtain ⟨t3, rfl⟩ := h3; obtain ⟨t4, rfl⟩ := h4; obtain ⟨t5, rfl⟩ := h5
  obtain ⟨t6, rfl⟩ := h6; obtain ⟨t7, rfl⟩ := h7; obtain ⟨t8, rfl⟩ := h8
  have : x * (((((((((0 + t0) + t1) + t2) + t3) + t4) + t5) + t6) + t7) + t8)
      = ((((((((0 + t0 * x) + t1 * x) + t2 * x) + t3 * x) + t4 * x) + t5 * x) + t6 * x) + t7 * x) + t8 * x := by ring
  exact_mod_cast this

/-! ## The kernel's shifts, read at an entry -/

section Shifts
variable {α : Type}

abbrev P : Shape := ⟨3, ![4, 256, 256]⟩
abbrev Prow : Shape := ⟨3, ![4, 255, 256]⟩
abbrev Pcol : Shape := ⟨3, ![4, 256, 255]⟩
abbrev Zrow : Shape := ⟨3, ![4, 1, 256]⟩
abbrev Zcol : Shape := ⟨3, ![4, 256, 1]⟩

/-- Rows moved up by one (`out[r] = v[r + 1]`, the last row `z`). -/
theorem rowsUp_apply (v : P.Idx → α) (z : Zrow.Idx → α) (hs : P.Slices ![0, 1, 0] Prow)
    (hc : Shape.Concatenates [Prow, Zrow] P 1) (b : Fin 4) (r c : Fin 256) :
    concatenate P 1 [⟨Prow, extractStridedSlice Prow ![0, 1, 0] v hs⟩, ⟨Zrow, z⟩] hc (ix3 b r c)
      = if h : r.val + 1 < 256 then v (ix3 b ⟨r.val + 1, h⟩ c) else z (ix3 b 0 c) := by
  split
  · next h =>
    rw [concatenate_pair_apply_left (t := P) (s₁ := Prow) (s₂ := Zrow) (1 : Fin 3) _ _ hc (ix3 b r c) rfl (ix3 b ⟨r.val, by omega⟩ c)
      (fun a => by match a with | ⟨0, _⟩ => rfl | ⟨1, _⟩ => rfl | ⟨2, _⟩ => rfl)]
    exact extractStridedSlice_apply _ v hs _ _ (fun a => by
      match a with
      | ⟨0, _⟩ => show b.val = 0 + b.val; omega
      | ⟨1, _⟩ => show r.val + 1 = 1 + r.val; omega
      | ⟨2, _⟩ => show c.val = 0 + c.val; omega)
  · next h =>
    exact concatenate_pair_apply_right (t := P) (s₁ := Prow) (s₂ := Zrow) (1 : Fin 3) _ _ hc (ix3 b r c) rfl rfl (ix3 b 0 c)
      (fun a ha => by
        match a with
        | ⟨0, _⟩ => rfl
        | ⟨1, _⟩ => exact absurd rfl ha
        | ⟨2, _⟩ => rfl)
      (by show 0 + 255 = r.val; have := r.isLt; omega)

/-- Rows moved down by one (`out[r] = v[r - 1]`, the first row `z`). -/
theorem rowsDown_apply (v : P.Idx → α) (z : Zrow.Idx → α) (hs : P.Slices ![0, 0, 0] Prow)
    (hc : Shape.Concatenates [Zrow, Prow] P 1) (b : Fin 4) (r c : Fin 256) :
    concatenate P 1 [⟨Zrow, z⟩, ⟨Prow, extractStridedSlice Prow ![0, 0, 0] v hs⟩] hc (ix3 b r c)
      = if h : 1 ≤ r.val then v (ix3 b ⟨r.val - 1, by have := r.isLt; omega⟩ c) else z (ix3 b 0 c) := by
  split
  · next h =>
    rw [concatenate_pair_apply_right (t := P) (s₁ := Zrow) (s₂ := Prow) (1 : Fin 3) _ _ hc (ix3 b r c) rfl rfl (ix3 b ⟨r.val - 1, by have := r.isLt; omega⟩ c)
      (fun a ha => by
        match a with
        | ⟨0, _⟩ => rfl
        | ⟨1, _⟩ => exact absurd rfl ha
        | ⟨2, _⟩ => rfl)
      (by show r.val - 1 + 1 = r.val; omega)]
    exact extractStridedSlice_apply _ v hs _ _ (fun a => by
      match a with
      | ⟨0, _⟩ => show b.val = 0 + b.val; omega
      | ⟨1, _⟩ => show r.val - 1 = 0 + (r.val - 1); omega
      | ⟨2, _⟩ => show c.val = 0 + c.val; omega)
  · next h =>
    exact concatenate_pair_apply_left (t := P) (s₁ := Zrow) (s₂ := Prow) (1 : Fin 3) _ _ hc (ix3 b r c) rfl (ix3 b 0 c)
      (fun a => by
        match a with
        | ⟨0, _⟩ => rfl
        | ⟨1, _⟩ => show 0 = r.val; omega
        | ⟨2, _⟩ => rfl)

/-- Columns moved left by one (`out[c] = v[c + 1]`, the last column `z`). -/
theorem colsLeft_apply (v : P.Idx → α) (z : Zcol.Idx → α) (hs : P.Slices ![0, 0, 1] Pcol)
    (hc : Shape.Concatenates [Pcol, Zcol] P 2) (b : Fin 4) (r c : Fin 256) :
    concatenate P 2 [⟨Pcol, extractStridedSlice Pcol ![0, 0, 1] v hs⟩, ⟨Zcol, z⟩] hc (ix3 b r c)
      = if h : c.val + 1 < 256 then v (ix3 b r ⟨c.val + 1, h⟩) else z (ix3 b r 0) := by
  split
  · next h =>
    rw [concatenate_pair_apply_left (t := P) (s₁ := Pcol) (s₂ := Zcol) (2 : Fin 3) _ _ hc (ix3 b r c) rfl (ix3 b r ⟨c.val, by omega⟩)
      (fun a => by match a with | ⟨0, _⟩ => rfl | ⟨1, _⟩ => rfl | ⟨2, _⟩ => rfl)]
    exact extractStridedSlice_apply _ v hs _ _ (fun a => by
      match a with
      | ⟨0, _⟩ => show b.val = 0 + b.val; omega
      | ⟨1, _⟩ => show r.val = 0 + r.val; omega
      | ⟨2, _⟩ => show c.val + 1 = 1 + c.val; omega)
  · next h =>
    exact concatenate_pair_apply_right (t := P) (s₁ := Pcol) (s₂ := Zcol) (2 : Fin 3) _ _ hc (ix3 b r c) rfl rfl (ix3 b r 0)
      (fun a ha => by
        match a with
        | ⟨0, _⟩ => rfl
        | ⟨1, _⟩ => rfl
        | ⟨2, _⟩ => exact absurd rfl ha)
      (by show 0 + 255 = c.val; have := c.isLt; omega)

/-- Columns moved right by one (`out[c] = v[c - 1]`, the first column `z`). -/
theorem colsRight_apply (v : P.Idx → α) (z : Zcol.Idx → α) (hs : P.Slices ![0, 0, 0] Pcol)
    (hc : Shape.Concatenates [Zcol, Pcol] P 2) (b : Fin 4) (r c : Fin 256) :
    concatenate P 2 [⟨Zcol, z⟩, ⟨Pcol, extractStridedSlice Pcol ![0, 0, 0] v hs⟩] hc (ix3 b r c)
      = if h : 1 ≤ c.val then v (ix3 b r ⟨c.val - 1, by have := c.isLt; omega⟩) else z (ix3 b r 0) := by
  split
  · next h =>
    rw [concatenate_pair_apply_right (t := P) (s₁ := Zcol) (s₂ := Pcol) (2 : Fin 3) _ _ hc (ix3 b r c) rfl rfl (ix3 b r ⟨c.val - 1, by have := c.isLt; omega⟩)
      (fun a ha => by
        match a with
        | ⟨0, _⟩ => rfl
        | ⟨1, _⟩ => rfl
        | ⟨2, _⟩ => exact absurd rfl ha)
      (by show c.val - 1 + 1 = c.val; omega)]
    exact extractStridedSlice_apply _ v hs _ _ (fun a => by
      match a with
      | ⟨0, _⟩ => show b.val = 0 + b.val; omega
      | ⟨1, _⟩ => show r.val = 0 + r.val; omega
      | ⟨2, _⟩ => show c.val - 1 = 0 + (c.val - 1); omega)
  · next h =>
    exact concatenate_pair_apply_left (t := P) (s₁ := Zcol) (s₂ := Pcol) (2 : Fin 3) _ _ hc (ix3 b r c) rfl (ix3 b r 0)
      (fun a => by
        match a with
        | ⟨0, _⟩ => rfl
        | ⟨1, _⟩ => rfl
        | ⟨2, _⟩ => show 0 = c.val; omega)

/-- Tap-plane `k` of a `[4, 9, 256, 256]` block, cut out and flattened to `[4, 256, 256]`, at an entry. -/
theorem plane_apply (v : (⟨4, ![4, 9, 256, 256]⟩ : Shape).Idx → α) (k : Nat)
    (hs : (⟨4, ![4, 9, 256, 256]⟩ : Shape).Slices ![0, k, 0, 0] ⟨4, ![4, 1, 256, 256]⟩)
    (hcast : (⟨4, ![4, 1, 256, 256]⟩ : Shape).ShapeCasts P) (b : Fin 4) (r c : Fin 256) :
    shapeCast P (extractStridedSlice ⟨4, ![4, 1, 256, 256]⟩ ![0, k, 0, 0] v hs) hcast (ix3 b r c)
      = v (ix4 b ⟨k, hs.2 1⟩ r c) := by
  rw [shapeCast_apply _ hcast (ix3 b r c) (ix4 b 0 r c)
    (by rw [Shape.rowMajor_val_four, Shape.rowMajor_val_three]
        show ((b.val * 1 + 0) * 256 + r.val) * 256 + c.val = (b.val * 256 + r.val) * 256 + c.val
        omega)]
  exact extractStridedSlice_apply _ v hs _ _ (fun a => by
    match a with
    | ⟨0, _⟩ => show b.val = 0 + b.val; omega
    | ⟨1, _⟩ => show k = k + 0; omega
    | ⟨2, _⟩ => show r.val = 0 + r.val; omega
    | ⟨3, _⟩ => show c.val = 0 + c.val; omega)

end Shifts

/-! ## The nine shifted planes are the nine taps -/

section Bridge
variable (g : Fin 256 → Fin 256 → EReal) (r c : Fin 256)

theorem tap00 : (if h : c.val + 1 < 256 then if h1 : r.val + 1 < 256 then g ⟨r.val + 1, h1⟩ ⟨c.val + 1, h⟩ else 0 else 0)
    = tapVal g 0 0 r c := by
  unfold tapVal
  by_cases h : c.val + 1 < 256 <;> by_cases h1 : r.val + 1 < 256
  · rw [dif_pos h, dif_pos h1, dif_pos ⟨⟨by omega, by omega⟩, ⟨by omega, by omega⟩⟩]; rfl
  · rw [dif_pos h, dif_neg h1, dif_neg (by omega)]
  · rw [dif_neg h, dif_neg (by omega)]
  · rw [dif_neg h, dif_neg (by omega)]

theorem tap01 : (if h : r.val + 1 < 256 then g ⟨r.val + 1, h⟩ c else 0) = tapVal g 0 1 r c := by
  unfold tapVal
  have := c.isLt
  by_cases h : r.val + 1 < 256
  · rw [dif_pos h, dif_pos ⟨⟨by omega, by omega⟩, ⟨by omega, by omega⟩⟩]; rfl
  · rw [dif_neg h, dif_neg (by omega)]

theorem tap02 : (if h : 1 ≤ c.val then if h1 : r.val + 1 < 256 then g ⟨r.val + 1, h1⟩ ⟨c.val - 1, by have := c.isLt; omega⟩ else 0 else 0)
    = tapVal g 0 2 r c := by
  unfold tapVal
  have := c.isLt
  by_cases h : 1 ≤ c.val <;> by_cases h1 : r.val + 1 < 256
  · rw [dif_pos h, dif_pos h1, dif_pos ⟨⟨by omega, by omega⟩, ⟨by omega, by omega⟩⟩]; rfl
  · rw [dif_pos h, dif_neg h1, dif_neg (by omega)]
  · rw [dif_neg h, dif_neg (by omega)]
  · rw [dif_neg h, dif_neg (by omega)]

theorem tap10 : (if h : c.val + 1 < 256 then g r ⟨c.val + 1, h⟩ else 0) = tapVal g 1 0 r c := by
  unfold tapVal
  have := r.isLt
  by_cases h : c.val + 1 < 256
  · rw [dif_pos h, dif_pos ⟨⟨by omega, by omega⟩, ⟨by omega, by omega⟩⟩]; rfl
  · rw [dif_neg h, dif_neg (by omega)]

theorem tap11 : g r c = tapVal g 1 1 r c := by
  unfold tapVal
  have := r.isLt; have := c.isLt
  rw [dif_pos ⟨⟨by omega, by omega⟩, ⟨by omega, by omega⟩⟩]; rfl

theorem tap12 : (if h : 1 ≤ c.val then g r ⟨c.val - 1, by have := c.isLt; omega⟩ else 0) = tapVal g 1 2 r c := by
  unfold tapVal
  have := r.isLt; have := c.isLt
  by_cases h : 1 ≤ c.val
  · rw [dif_pos h, dif_pos ⟨⟨by omega, by omega⟩, ⟨by omega, by omega⟩⟩]; rfl
  · rw [dif_neg h, dif_neg (by omega)]

theorem tap20 : (if h : c.val + 1 < 256 then if h1 : 1 ≤ r.val then g ⟨r.val - 1, by have := r.isLt; omega⟩ ⟨c.val + 1, h⟩ else 0 else 0)
    = tapVal g 2 0 r c := by
  unfold tapVal
  have := r.isLt
  by_cases h : c.val + 1 < 256 <;> by_cases h1 : 1 ≤ r.val
  · rw [dif_pos h, dif_pos h1, dif_pos ⟨⟨by omega, by omega⟩, ⟨by omega, by omega⟩⟩]; rfl
  · rw [dif_pos h, dif_neg h1, dif_neg (by omega)]
  · rw [dif_neg h, dif_neg (by omega)]
  · rw [dif_neg h, dif_neg (by omega)]

theorem tap21 : (if h : 1 ≤ r.val then g ⟨r.val - 1, by have := r.isLt; omega⟩ c else 0) = tapVal g 2 1 r c := by
  unfold tapVal
  have := r.isLt; have := c.isLt
  by_cases h : 1 ≤ r.val
  · rw [dif_pos h, dif_pos ⟨⟨by omega, by omega⟩, ⟨by omega, by omega⟩⟩]; rfl
  · rw [dif_neg h, dif_neg (by omega)]

theorem tap22 : (if h : 1 ≤ c.val then if h1 : 1 ≤ r.val then g ⟨r.val - 1, by have := r.isLt; omega⟩ ⟨c.val - 1, by have := c.isLt; omega⟩ else 0 else 0)
    = tapVal g 2 2 r c := by
  unfold tapVal
  have := r.isLt; have := c.isLt
  by_cases h : 1 ≤ c.val <;> by_cases h1 : 1 ≤ r.val
  · rw [dif_pos h, dif_pos h1, dif_pos ⟨⟨by omega, by omega⟩, ⟨by omega, by omega⟩⟩]; rfl
  · rw [dif_pos h, dif_neg h1, dif_neg (by omega)]
  · rw [dif_neg h, dif_neg (by omega)]
  · rw [dif_neg h, dif_neg (by omega)]

end Bridge

/-- The nine taps of nine planes summed from zero, in the order a row-major walk of the 3×3 window takes them. -/
def nineTaps (g : Fin 9 → Fin 256 → Fin 256 → EReal) (r c : Fin 256) : EReal :=
  ((((((((0 + tapVal (g ⟨0, by decide⟩) 0 0 r c) + tapVal (g ⟨1, by decide⟩) 0 1 r c) + tapVal (g ⟨2, by decide⟩) 0 2 r c)
    + tapVal (g ⟨3, by decide⟩) 1 0 r c) + tapVal (g ⟨4, by decide⟩) 1 1 r c) + tapVal (g ⟨5, by decide⟩) 1 2 r c)
    + tapVal (g ⟨6, by decide⟩) 2 0 r c) + tapVal (g ⟨7, by decide⟩) 2 1 r c) + tapVal (g ⟨8, by decide⟩) 2 2 r c

/-- A real factor times the nine-tap sum of real planes is the nine-tap sum of the planes times the factor. -/
theorem mul_nineTaps (x : EReal) (g : Fin 9 → Fin 256 → Fin 256 → EReal) (r c : Fin 256)
    (hx : ∃ y : ℝ, x = (y : EReal)) (hg : ∀ k r' c', ∃ y : ℝ, g k r' c' = (y : EReal)) :
    x * nineTaps g r c = nineTaps (fun k r' c' => g k r' c' * x) r c := by
  unfold nineTaps
  simp only [tapVal_mul]
  exact mul_nine x _ _ _ _ _ _ _ _ _ hx (tapVal_real _ (hg _) _ _ _ _) (tapVal_real _ (hg _) _ _ _ _)
    (tapVal_real _ (hg _) _ _ _ _) (tapVal_real _ (hg _) _ _ _ _) (tapVal_real _ (hg _) _ _ _ _)
    (tapVal_real _ (hg _) _ _ _ _) (tapVal_real _ (hg _) _ _ _ _) (tapVal_real _ (hg _) _ _ _ _)
    (tapVal_real _ (hg _) _ _ _ _)

end Cert.Taps

end
-- ==== Proof.KRegion0.lean ====
/-
  The first launch: the shifted-tap products.

  Grid point `t` (of 16) handles channels `4t … 4t+3`: it loads the nine tap planes of each channel and the
  channel's `x` plane, adds up the nine planes each shifted by one row and one column or none (zeros moving in at the
  border), multiplies by `x` and stores the block. So the whole output array is ONE function of the two arrays read:
  entry `(ch, R, C)` is `x[ch, R, C]` times the nine-tap sum of channel `ch`'s planes at `(R, C)`.
-/
import proofs.«123624_j27659589386409_1_alg».proof.Proof.Gen.KernelIdeal.Frame
import proofs.«123624_j27659589386409_1_alg».proof.Proof.Taps
import Idealize.ShloMosaic.PureOps.Ideal.Laws
import Idealize.ShloMosaic.Lib.Pipeline.Value

set_option maxRecDepth 16384

noncomputable section

namespace Cert.KernelIdeal.Region0

open Cert.KernelIdeal Cert.KernelIdeal.Gen Cert.Taps
open Idealize.ShloMosaic Idealize.ShloMosaic.TcCoe Idealize.ShloMosaic.ValueIdx Idealize.SL.Sem
open Idealize.ShloMosaic.Pipeline (Dat)

/-- The body's stored block at an entry: the block's `x` entry times the nine-tap sum of the block's planes. -/
theorem pay_apply (x0 : Vec Ideal S4x9x256x256 .f32) (x1 : Vec Ideal S4x256x256 .f32) (b : Fin 4) (r c : Fin 256) :
    k0_pay1 (k0_pay2 x0) (k0_pay3 x1) (k0_pay4 x0) (ix3 b r c)
      = x1 (ix3 b r c) * nineTaps (fun k r' c' => x0 (ix4 b k r' c')) r c := by
  unfold k0_pay1 k0_pay4 k0_pay3 k0_pay2
  simp only [shapeCast_self, truncf_apply, mulf_apply, addf_apply, broadcast_apply,
    colsLeft_apply, colsRight_apply, rowsUp_apply, rowsDown_apply, plane_apply, Ideal.ofBits_def, Ideal.ofBits_zero_f32]
  rw [tap00 (fun r' c' => x0 (ix4 b ⟨0, by decide⟩ r' c')) r c, tap01 (fun r' c' => x0 (ix4 b ⟨1, by decide⟩ r' c')) r c,
    tap02 (fun r' c' => x0 (ix4 b ⟨2, by decide⟩ r' c')) r c, tap10 (fun r' c' => x0 (ix4 b ⟨3, by decide⟩ r' c')) r c,
    tap12 (fun r' c' => x0 (ix4 b ⟨5, by decide⟩ r' c')) r c, tap20 (fun r' c' => x0 (ix4 b ⟨6, by decide⟩ r' c')) r c,
    tap21 (fun r' c' => x0 (ix4 b ⟨7, by decide⟩ r' c')) r c, tap22 (fun r' c' => x0 (ix4 b ⟨8, by decide⟩ r' c')) r c,
    tap11 (fun r' c' => x0 (ix4 b ⟨4, by decide⟩ r' c')) r c]
  rfl

/-- The launch's output array as one function of the tap planes `wv : [64, 9, 256, 256]` and of `xv : [64, 256, 256]`. -/
def G0 (wv : S64x9x256x256.Idx → EReal) (xv : S64x256x256.Idx → EReal) : S64x256x256.Idx → EReal :=
  fun i => xv i * nineTaps (fun k r' c' => wv (ix4 (i 0 : Fin 64) k r' c')) (i 1 : Fin 256) (i 2 : Fin 256)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: all three windows move along the channel axis together and stay at block
    zero on the others. -/
theorem idx_facts : ∀ t : Fin cfg0.N,
    win0_0.index t (0 : Fin 4) = win0_2.index t (0 : Fin 3) ∧ win0_0.index t (1 : Fin 4) = 0
    ∧ win0_0.index t (2 : Fin 4) = 0 ∧ win0_0.index t (3 : Fin 4) = 0
    ∧ win0_1.index t (0 : Fin 3) = win0_2.index t (0 : Fin 3) ∧ win0_1.index t (1 : Fin 3) = 0
    ∧ win0_1.index t (2 : Fin 3) = 0
    ∧ win0_2.index t (1 : Fin 3) = 0 ∧ win0_2.index t (2 : Fin 3) = 0 ∧ win0_2.index t (0 : Fin 3) ≤ 15 :=
  (by decide +kernel : ∀ t : Fin grid0.N, _)

/-- Every channel block is some point's. -/
theorem idx_onto : ∀ q : Fin 16, ∃ t : Fin cfg0.N, win0_2.index t = ![q.val, 0, 0] :=
  (by decide +kernel : ∀ q : Fin 16, ∃ t : Fin grid0.N, win0_2.index t = ![q.val, 0, 0])

section
variable (V : (c : Dev nD) → (b : Ref sig .tc) → Buf (Elt Ideal) ((c : Thread nD τ).loc b))

/-- What point `t` writes back is block `t` of `G0` of the arrays as the launch finds them. -/
theorem flushed_eq (c : Dev nD) (t : Fin cfg0.N) :
    (dat0 V c).flushed 2 t = ((cfg0.win 2).blk t).view.read (Elt Ideal) (G0 (V c main_v1) (V c main_v0)) := by
  show (cfg0.win 2).cut (grid0.coords t) ((dat0 V c).after 2 t) = _
  rw [after0_2]
  unfold out0_2
  rw [View.canon_unit_zero hz3]
  simp only [View.ld_unit_zero (S := S4x9x256x256) hz4, View.ld_unit_zero (S := S4x256x256) hz3]
  obtain ⟨e0, e1, e2, e3, e4, e5, e6, e7, e8, e9⟩ := idx_facts t
  funext y
  obtain ⟨b, r, q, rfl⟩ : ∃ (b : Fin 4) (r q : Fin 256), y = ix3 b r q := ⟨y 0, y 1, y 2, eq_ix3 y⟩
  show k0_pay1 (k0_pay2 (iblk0 V c 0 t)) (k0_pay3 (iblk0 V c 1 t)) (k0_pay4 (iblk0 V c 0 t)) (ix3 b r q)
      = G0 (V c main_v1) (V c main_v0) (((cfg0.win 2).blk t).view.emb (ix3 b r q))
  refine (pay_apply (iblk0 V c 0 t) (iblk0 V c 1 t) b r q).trans ?_
  -- where the block's entry sits in the array
  have h0 : ((((cfg0.win 2).blk t).view.emb (ix3 b r q)) (0 : Fin 3)).val = win0_2.index t (0 : Fin 3) * 4 + 1 * b.val := rfl
  have h1 : ((((cfg0.win 2).blk t).view.emb (ix3 b r q)) (1 : Fin 3)).val = win0_2.index t (1 : Fin 3) * 256 + 1 * r.val := rfl
  have h2 : ((((cfg0.win 2).blk t).view.emb (ix3 b r q)) (2 : Fin 3)).val = win0_2.index t (2 : Fin 3) * 256 + 1 * q.val := rfl
  generalize ((cfg0.win 2).blk t).view.emb (ix3 b r q) = i at h0 h1 h2
  unfold G0
  have hr : r = (i 1 : Fin 256) := Fin.ext (by rw [h1]; omega)
  have hq : q = (i 2 : Fin 256) := Fin.ext (by rw [h2]; omega)
  have hx : iblk0 V c 1 t (ix3 b r q) = V c main_v0 i := by
    show V c main_v0 (((cfg0.win 1).blk t).view.emb (ix3 b r q)) = V c main_v0 i
    refine congrArg _ (funext fun a => Fin.ext ?_)
    match a with
    | ⟨0, _⟩ => show win0_1.index t (0 : Fin 3) * 4 + 1 * b.val = (i 0).val; rw [h0]; omega
    | ⟨1, _⟩ => show win0_1.index t (1 : Fin 3) * 256 + 1 * r.val = (i 1).val; rw [h1]; omega
    | ⟨2, _⟩ => show win0_1.index t (2 : Fin 3) * 256 + 1 * q.val = (i 2).val; rw [h2]; omega
  have hw : (fun (k : Fin 9) (r' c' : Fin 256) => iblk0 V c 0 t (ix4 b k r' c'))
      = fun k r' c' => V c main_v1 (ix4 (i 0 : Fin 64) k r' c') := by
    funext k r' c'
    show V c main_v1 (((cfg0.win 0).blk t).view.emb (ix4 b k r' c')) = V c main_v1 (ix4 (i 0 : Fin 64) k r' c')
    refine congrArg _ (funext fun a => Fin.ext ?_)
    match a with
    | ⟨0, _⟩ => show win0_0.index t (0 : Fin 4) * 4 + 1 * b.val = (i 0).val; rw [h0]; omega
    | ⟨1, _⟩ => show win0_0.index t (1 : Fin 4) * 9 + 1 * k.val = k.val; omega
    | ⟨2, _⟩ => show win0_0.index t (2 : Fin 4) * 256 + 1 * r'.val = r'.val; omega
    | ⟨3, _⟩ => show win0_0.index t (3 : Fin 4) * 256 + 1 * c'.val = c'.val; omega
  rw [hx, hw, hr, hq]

/-- An index of the array is in point `t`'s block iff each coordinate is in the block's range on its axis. -/
theorem mem_blk (t : Fin cfg0.N) (i : S64x256x256.Idx) :
    i ∈ ((cfg0.win 2).blk t).view.set ↔ ∀ a : Fin 3, win0_2.index t a * S4x256x256.size a ≤ (i a).val
      ∧ (i a).val < win0_2.index t a * S4x256x256.size a + S4x256x256.size a := by
  show i ∈ ((View.whole main_v3).slice (win0_2.rect t)).set ↔ _
  rw [View.set_slice_whole, Rect.mem_set_unit]
  exact Iff.rfl

/-- The sixteen blocks cover the array. -/
theorem cover (i : S64x256x256.Idx) :
    ∃ t : Fin cfg0.N, (cfg0.win 2).flush t = true ∧ i ∈ ((cfg0.win 2).blk t).view.set := by
  have hi0 : (i 0).val < 64 := (i 0).isLt
  have hi1 : (i 1).val < 256 := (i 1).isLt
  have hi2 : (i 2).val < 256 := (i 2).isLt
  obtain ⟨t, ht⟩ := idx_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- THE FIRST LAUNCH'S OUTPUT ARRAY after the launch: `G0` of the two arrays it reads. -/
theorem final (c : Dev nD) : (dat0 V c).arrAt 2 cfg0.N = G0 (V c main_v1) (V c main_v0) :=
  (dat0 V c).arrAt_eq_of_cover 2 (G0 (V c main_v1) (V c main_v0)) (fun t _ => flushed_eq V c t) cover

end

end Cert.KernelIdeal.Region0

end
-- ==== Proof.LibMatmulCols.lean ====
/-
  The product of the TRANSPOSE of a [K, M] matrix by a [K, N] matrix, read at an entry, on the extended reals, for any
  extents and element formats: both operands are contracted along their first axis, so entry (p, n) of the product
  taken into a zero accumulator is the sum over k of the left matrix's (k, p) entry times the right matrix's (k, n)
  entry — column p of the left against column n of the right; taken into an accumulator acc it is acc's entry plus
  that sum.
-/
import Idealize.ShloMosaic.PureOps.Ideal.Laws
import Idealize.ShloMosaic.Lib.ValueIdx

noncomputable section

namespace Cert.LibMatmulCols

open Idealize.ShloMosaic Idealize.ShloMosaic.ValueIdx

/-- The dimension numbers of a column-against-column product: contract the left matrix's rows with the right one's rows. -/
abbrev colsDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : Nat} (wf : DotDims.WF ⟨2, ![K, M]⟩ ⟨2, ![K, N]⟩ ⟨2, ![M, N]⟩ [0] [0] [1] [1] [] [])

/-- The left operand's column coordinate is the output entry's row. -/
theorem lhsIdx_col (j : (⟨2, ![M, N]⟩ : Shape).Idx) (q : (colsDims K M N wf).contr.Idx) :
    ((colsDims K M N wf).lhsIdx j q 1).val = (j 0).val := by
  unfold DotDims.lhsIdx
  rw [dif_neg (show ¬(1 : Fin 2) ∈ (colsDims K M N wf).lhsBatch from List.not_mem_nil),
    dif_pos (show (1 : Fin 2) ∈ (colsDims K M N wf).lhsNonContracting from List.mem_singleton.mpr rfl)]
  rfl

/-- The right operand's column coordinate is the output entry's column. -/
theorem rhsIdx_col (j : (⟨2, ![M, N]⟩ : Shape).Idx) (q : (colsDims K M N wf).contr.Idx) :
    ((colsDims K M N wf).rhsIdx j q 1).val = (j 1).val := by
  unfold DotDims.rhsIdx
  rw [dif_neg (show ¬(1 : Fin 2) ∈ (colsDims K M N wf).rhsBatch from List.not_mem_nil),
    dif_pos (show (1 : Fin 2) ∈ (colsDims K M N wf).rhsNonContracting from List.mem_singleton.mpr rfl)]
  rfl

/-- The left operand's index for output entry (p, n) and contraction index k is (k, p). -/
theorem lhsIdx_eq (p : Fin M) (n : Fin N) (k : Fin K) :
    (colsDims K M N wf).lhsIdx (ix2 p n) ((contrEquiv1 (colsDims K M N wf) K rfl rfl).symm k) = ix2 k p := by
  have hk := contrEquiv1_symm_val (colsDims K M N wf) K rfl rfl k
  funext a
  refine Fin.ext ?_
  match a with
  | ⟨0, _⟩ => exact ((colsDims K M N wf).lhsIdx_val_of_single rfl _ _).trans hk
  | ⟨1, _⟩ => exact lhsIdx_col wf _ _

/-- The right operand's index for output entry (p, n) and contraction index k is (k, n). -/
theorem rhsIdx_eq (p : Fin M) (n : Fin N) (k : Fin K) :
    (colsDims K M N wf).rhsIdx (ix2 p n) ((contrEquiv1 (colsDims K M N wf) K rfl rfl).symm k) = ix2 k n := by
  have hk := contrEquiv1_symm_val (colsDims K M N wf) K rfl rfl k
  funext a
  refine Fin.ext ?_
  match a with
  | ⟨0, _⟩ => exact ((colsDims K M N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32)
    (p : Fin M) (n : Fin N) :
    FloatOps.matmul (colsDims K M N wf) prec lhs rhs acc (ix2 p n)
      = acc (ix2 p n) + ∑ k : Fin K, lhs (ix2 k p) * rhs (ix2 k n) := by
  rw [Ideal.matmul_apply, ← Equiv.sum_comp (contrEquiv1 (colsDims K M N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![K, M]⟩ φ₁) (rhs : FVec Ideal ⟨2, ![K, N]⟩ φ₂) (p : Fin M) (n : Fin N) :
    FloatOps.matmul (colsDims K M N wf) prec lhs rhs (constant ⟨2, ![M, N]⟩ .f32 0x00000000#32) (ix2 p n)
      = ∑ k : Fin K, lhs (ix2 k p) * rhs (ix2 k n) := by
  rw [matmul_apply wf prec lhs rhs _ p n]
  show Ideal.ofBits .f32 0x00000000#32 + _ = _
  rw [Ideal.ofBits_zero_f32, zero_add]

end Cert.LibMatmulCols

end
-- ==== Proof.KRegion1.lean ====
/-
  The second launch: the channel mix.

  Grid point `t` (of 8) handles columns `8192 t … 8192 t + 8191` of the flattened planes: it loads all 64 channels
  of those columns and the whole 64×64 mixing matrix and stores the product of the matrix's transpose with the
  block. So the whole output is ONE function of the two arrays read: entry `(o, l)` is the sum over the channels `k` of
  the matrix's `(k, o)` entry times the plane array's `(k, l)` entry.
-/
import proofs.«123624_j27659589386409_1_alg».proof.Proof.Gen.KernelIdeal.Frame
import proofs.«123624_j27659589386409_1_alg».proof.Proof.LibMatmulCols
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The body's stored block at an entry: column `o` of the mixing matrix against column `l` of the block. -/
theorem pay_apply (x0 : Vec Ideal S64x8192 .bf16) (x1 : Vec Ideal S64x64 .bf16) (o : Fin 64) (l : Fin 8192) :
    k1_pay1 x0 x1 (ix2 o l) = ∑ k : Fin 64, x1 (ix2 k o) * x0 (ix2 k l) := by
  unfold k1_pay1
  simp only [shapeCast_self]
  exact Cert.LibMatmulCols.matmul_zero_apply (K := 64) (M := 64) (N := 8192)
    dot_S64x64_S64x8192_S64x8192_0_0_1_1_n_n_wf none x1 x0 o l

/-- The launch's output array as one function of the planes `hv : [64, 65536]` and the mixing matrix `cv : [64, 64]`. -/
def G1 (hv : S64x65536.Idx → EReal) (cv : S64x64.Idx → EReal) : S64x65536.Idx → EReal :=
  fun i => ∑ k : Fin 64, cv (ix2 k (i 0 : Fin 64)) * hv (ix2 k (i 1 : Fin 65536))

theorem hz2 : (![0, 0] : Fin 2 → Nat) = fun _ => 0 := funext fun a => by fin_cases a <;> rfl

/-- The printed index maps over the grid: the plane window and the output window move along the column axis
    together; the mixing matrix stays whole. -/
theorem idx_facts : ∀ t : Fin cfg1.N,
    win1_0.index t (0 : Fin 2) = 0 ∧ win1_0.index t (1 : Fin 2) = win1_2.index t (1 : Fin 2)
    ∧ win1_1.index t (0 : Fin 2) = 0 ∧ win1_1.index t (1 : Fin 2) = 0
    ∧ win1_2.index t (0 : Fin 2) = 0 ∧ win1_2.index t (1 : Fin 2) ≤ 7 :=
  (by decide +kernel : ∀ t : Fin grid1.N, _)

/-- Every column block is some point's. -/
theorem idx_onto : ∀ q : Fin 8, ∃ t : Fin cfg1.N, win1_2.index t = ![0, q.val] :=
  (by decide +kernel : ∀ q : Fin 8, ∃ t : Fin grid1.N, win1_2.index t = ![0, q.val])

section
variable (V : (c : Dev nD) → (b : Ref sig .tc) → Buf (Elt Ideal) ((c : Thread nD τ).loc b))

/-- What point `t` writes back is block `t` of `G1` of the arrays as the launch finds them. -/
theorem flushed_eq (c : Dev nD) (t : Fin cfg1.N) :
    (dat1 V c).flushed 2 t = ((cfg1.win 2).blk t).view.read (Elt Ideal) (G1 (V c main_v4) (V c main_v2)) := by
  show (cfg1.win 2).cut (grid1.coords t) ((dat1 V c).after 2 t) = _
  rw [after1_2]
  unfold out1_2
  rw [View.canon_unit_zero hz2]
  simp only [View.ld_unit_zero (S := S64x8192) hz2, View.ld_unit_zero (S := S64x64) hz2]
  obtain ⟨e0, e1, e2, e3, e4, e5⟩ := idx_facts t
  funext y
  obtain ⟨o, l, rfl⟩ : ∃ (o : Fin 64) (l : Fin 8192), y = ix2 o l := ⟨y 0, y 1, eq_ix2 y⟩
  show k1_pay1 (iblk1 V c 0 t) (iblk1 V c 1 t) (ix2 o l)
      = G1 (V c main_v4) (V c main_v2) (((cfg1.win 2).blk t).view.emb (ix2 o l))
  refine (pay_apply (iblk1 V c 0 t) (iblk1 V c 1 t) o l).trans ?_
  have h0 : ((((cfg1.win 2).blk t).view.emb (ix2 o l)) (0 : Fin 2)).val = win1_2.index t (0 : Fin 2) * 64 + 1 * o.val := rfl
  have h1 : ((((cfg1.win 2).blk t).view.emb (ix2 o l)) (1 : Fin 2)).val = win1_2.index t (1 : Fin 2) * 8192 + 1 * l.val := rfl
  generalize ((cfg1.win 2).blk t).view.emb (ix2 o l) = i at h0 h1
  unfold G1
  refine Finset.sum_congr rfl fun k _ => ?_
  have hc : iblk1 V c 1 t (ix2 k o) = V c main_v2 (ix2 k (i 0 : Fin 64)) := by
    show V c main_v2 (((cfg1.win 1).blk t).view.emb (ix2 k o)) = V c main_v2 (ix2 k (i 0 : Fin 64))
    refine congrArg _ (funext fun a => Fin.ext ?_)
    match a with
    | ⟨0, _⟩ => show win1_1.index t (0 : Fin 2) * 64 + 1 * k.val = k.val; omega
    | ⟨1, _⟩ => show win1_1.index t (1 : Fin 2) * 64 + 1 * o.val = (i 0).val; rw [h0]; omega
  have hh : iblk1 V c 0 t (ix2 k l) = V c main_v4 (ix2 k (i 1 : Fin 65536)) := by
    show V c main_v4 (((cfg1.win 0).blk t).view.emb (ix2 k l)) = V c main_v4 (ix2 k (i 1 : Fin 65536))
    refine congrArg _ (funext fun a => Fin.ext ?_)
    match a with
    | ⟨0, _⟩ => show win1_0.index t (0 : Fin 2) * 64 + 1 * k.val = k.val; omega
    | ⟨1, _⟩ => show win1_0.index t (1 : Fin 2) * 8192 + 1 * l.val = (i 1).val; rw [h1]; omega
  rw [hc, hh]

/-- An index of the array is in point `t`'s block iff each coordinate is in the block's range on its axis. -/
theorem mem_blk (t : Fin cfg1.N) (i : S64x65536.Idx) :
    i ∈ ((cfg1.win 2).blk t).view.set ↔ ∀ a : Fin 2, win1_2.index t a * S64x8192.size a ≤ (i a).val
      ∧ (i a).val < win1_2.index t a * S64x8192.size a + S64x8192.size a := by
  show i ∈ ((View.whole main_v5).slice (win1_2.rect t)).set ↔ _
  rw [View.set_slice_whole, Rect.mem_set_unit]
  exact Iff.rfl

/-- The eight blocks cover the array. -/
theorem cover (i : S64x65536.Idx) :
    ∃ t : Fin cfg1.N, (cfg1.win 2).flush t = true ∧ i ∈ ((cfg1.win 2).blk t).view.set := by
  have hi0 : (i 0).val < 64 := (i 0).isLt
  have hi1 : (i 1).val < 65536 := (i 1).isLt
  obtain ⟨t, ht⟩ := idx_onto ⟨(i 1).val / 8192, by omega⟩
  have q0 : win1_2.index t (0 : Fin 2) = 0 := congrFun ht 0
  have q1 : win1_2.index t (1 : Fin 2) = (i 1).val / 8192 := congrFun ht 1
  refine ⟨t, flush1_2 t, ?_⟩
  rw [mem_blk]
  intro a
  match a with
  | ⟨0, _⟩ => show win1_2.index t (0 : Fin 2) * 64 ≤ (i 0).val ∧ (i 0).val < win1_2.index t (0 : Fin 2) * 64 + 64; omega
  | ⟨1, _⟩ => show win1_2.index t (1 : Fin 2) * 8192 ≤ (i 1).val ∧ (i 1).val < win1_2.index t (1 : Fin 2) * 8192 + 8192; omega

/-- THE SECOND LAUNCH'S OUTPUT ARRAY after the launch: `G1` of the two arrays it reads. -/
theorem final (c : Dev nD) : (dat1 V c).arrAt 2 cfg1.N = G1 (V c main_v4) (V c main_v2) :=
  (dat1 V c).arrAt_eq_of_cover 2 (G1 (V c main_v4) (V c main_v2)) (fun t _ => flushed_eq V c t) cover

end

end Cert.KernelIdeal.Region1

end
-- ==== Proof.KValue.lean ====
/-
  The idealized kernel's result as one function of its three arguments.

  Reading the run's last boundary back through the five segments: the result is the second launch's output array
  reshaped; that array is the channel mix (`Region1.G1`) of the first launch's output reshaped and of the mixing matrix
  (its change of float format is the identity on the extended reals); the first launch's output is the shifted-tap
  product (`Region0.G0`) of the two reshaped arguments. Read at an entry `(o, R, C)` this is the sum over the channels `k`
  of `conv[k, o]` times `x[k, R, C]` times the nine-tap sum of the weight planes `9k … 9k + 8` at `(R, C)`.
-/
import proofs.«123624_j27659589386409_1_alg».proof.Proof.KRun
import proofs.«123624_j27659589386409_1_alg».proof.Proof.KRegion0
import proofs.«123624_j27659589386409_1_alg».proof.Proof.KRegion1
import Idealize.ShloMosaic.Lib.StableHlo.Run

set_option maxRecDepth 16384

noncomputable section

namespace Cert.KernelIdeal.Whole

open Cert.KernelIdeal Cert.KernelIdeal.Gen Cert.Taps
open Idealize.ShloMosaic Idealize.ShloMosaic.TcCoe Idealize.ShloMosaic.ValueIdx Idealize.SL.Sem Idealize.ShloMosaic.StableHlo

/-- The kernel's result array as a function of `x`, the weights `w` and the mixing matrix `cv`. -/
def K (x : S1x64x256x256.Idx → EReal) (w : S1x576x65536.Idx → EReal) (cv : S64x64.Idx → EReal) : S1x64x256x256.Idx → EReal :=
  shapeCast S1x64x256x256
    (Region1.G1
      (shapeCast S64x65536
        (Region0.G0 (shapeCast S64x9x256x256 w shapeCasts_S1x576x65536_S64x9x256x256)
          (shapeCast S64x256x256 x shapeCasts_S1x64x256x256_S64x256x256))
        shapeCasts_S64x256x256_S64x65536)
      cv)
    shapeCasts_S64x65536_S1x64x256x256

/-- The weight plane `9k + kk`. -/
abbrev wplane (w : S1x576x65536.Idx → EReal) (k : Fin 64) (kk : Fin 9) : Fin 256 → Fin 256 → EReal := fun r c =>
  w (ix3 0 ⟨9 * k.val + kk.val, by have := k.isLt; have := kk.isLt; omega⟩ ⟨256 * r.val + c.val, by have := r.isLt; have := c.isLt; omega⟩)

/-- THE KERNEL'S RESULT at an entry. -/
theorem K_apply (x : S1x64x256x256.Idx → EReal) (w : S1x576x65536.Idx → EReal) (cv : S64x64.Idx → EReal)
    (o : Fin 64) (R C : Fin 256) :
    K x w cv (ix4 0 o R C) = ∑ k : Fin 64, cv (ix2 k o) * (x (ix4 0 k R C) * nineTaps (wplane w k) R C) := by
  have ho := o.isLt; have hR := R.isLt; have hC := C.isLt
  unfold K
  rw [shapeCast_apply _ shapeCasts_S64x65536_S1x64x256x256 (ix4 0 o R C) (ix2 o ⟨256 * R.val + C.val, by omega⟩)
    (by rw [Shape.rowMajor_val_two, Shape.rowMajor_val_four]
        show o.val * 65536 + (256 * R.val + C.val) = ((0 * 64 + o.val) * 256 + R.val) * 256 + C.val
        omega)]
  unfold Region1.G1
  refine Finset.sum_congr rfl fun k _ => ?_
  have hk := k.isLt
  refine congrArg (cv (ix2 k o) * ·) ?_
  show shapeCast S64x65536 _ shapeCasts_S64x256x256_S64x65536 (ix2 k ⟨256 * R.val + C.val, by omega⟩) = _
  rw [shapeCast_apply _ shapeCasts_S64x256x256_S64x65536 (ix2 k ⟨256 * R.val + C.val, by omega⟩) (ix3 k R C)
    (by rw [Shape.rowMajor_val_three, Shape.rowMajor_val_two]
        show (k.val * 256 + R.val) * 256 + C.val = k.val * 65536 + (256 * R.val + C.val)
        omega)]
  unfold Region0.G0
  show shapeCast S64x256x256 x shapeCasts_S1x64x256x256_S64x256x256 (ix3 k R C)
      * nineTaps (fun kk r' c' => shapeCast S64x9x256x256 w shapeCasts_S1x576x65536_S64x9x256x256 (ix4 k kk r' c')) R C = _
  rw [shapeCast_apply x shapeCasts_S1x64x256x256_S64x256x256 (ix3 k R C) (ix4 0 k R C)
    (by rw [Shape.rowMajor_val_four, Shape.rowMajor_val_three]
        show ((0 * 64 + k.val) * 256 + R.val) * 256 + C.val = (k.val * 256 + R.val) * 256 + C.val
        omega)]
  refine congrArg (x (ix4 0 k R C) * nineTaps · R C) (funext fun kk => funext fun r' => funext fun c' => ?_)
  have hkk := kk.isLt; have hr' := r'.isLt; have hc' := c'.isLt
  exact shapeCast_apply w shapeCasts_S1x576x65536_S64x9x256x256 (ix4 k kk r' c') _
    (by rw [Shape.rowMajor_val_three, Shape.rowMajor_val_four]
        show (0 * 576 + (9 * k.val + kk.val)) * 65536 + (256 * r'.val + c'.val) = ((k.val * 9 + kk.val) * 256 + r'.val) * 256 + c'.val
        omega)

section
variable (m : (ℓ : Loc nD τ sig) → Buf (Elt Ideal) ℓ) (ρ : Dev nD → PrngReg)

/-- The first launch finds the two reshaped arguments. -/
theorem entry0_w (c : Dev nD) : V1 m ρ c main_v1
    = shapeCast S64x9x256x256 (m ((c.tc : Thread nD τ).loc main_arg1)) shapeCasts_S1x576x65536_S64x9x256x256 := by
  show StableHlo.after hostOps0 (W0 m ρ c) (Proc.devRef .tc main_v1) = _
  after_results
  rfl

theorem entry0_x (c : Dev nD) : V1 m ρ c main_v0
    = shapeCast S64x256x256 (m ((c.tc : Thread nD τ).loc main_arg0)) shapeCasts_S1x64x256x256_S64x256x256 := by
  show StableHlo.after hostOps0 (W0 m ρ c) (Proc.devRef .tc main_v0) = _
  after_results
  rfl

/-- The mixing matrix in the narrower format is the argument itself: on the extended reals a change of float format is the identity. -/
theorem entry0_cv (c : Dev nD) : W1 m ρ c (Proc.devRef .tc main_v2) = m ((c.tc : Thread nD τ).loc main_arg2) := by
  show StableHlo.after hostOps0 (W0 m ρ c) (Proc.devRef .tc main_v2) = _
  after_results
  rfl

/-- The second launch finds the first launch's output flattened, and the mixing matrix. -/
theorem entry1_h (c : Dev nD) : V3 m ρ c main_v4
    = shapeCast S64x65536 (W2 m ρ c (Proc.devRef .tc main_v3)) shapeCasts_S64x256x256_S64x65536 := by
  show StableHlo.after hostOps1 (W2 m ρ c) (Proc.devRef .tc main_v4) = _
  after_results
  rfl

theorem entry1_cv (c : Dev nD) : V3 m ρ c main_v2 = m ((c.tc : Thread nD τ).loc main_arg2) := by
  have e1 : V3 m ρ c main_v2 = W2 m ρ c (Proc.devRef .tc main_v2) := by
    show StableHlo.after hostOps1 (W2 m ρ c) (Proc.devRef .tc main_v2) = _
    after_results
  rw [e1, W2_of_ne m ρ c main_v2 (by decide)]
  exact entry0_cv m ρ c

/-- THE LAST BOUNDARY'S RESULT BUFFER is `K` of the launch contents of the three arguments. -/
theorem result_eq (c : Dev nD) : W5 m ρ c (Proc.devRef .tc main_v6)
    = K (m ((c.tc : Thread nD τ).loc main_arg0)) (m ((c.tc : Thread nD τ).loc main_arg1)) (m ((c.tc : Thread nD τ).loc main_arg2)) := by
  have e5 : W5 m ρ c (Proc.devRef .tc main_v6)
      = shapeCast S1x64x256x256 (W4 m ρ c (Proc.devRef .tc main_v5)) shapeCasts_S64x65536_S1x64x256x256 := by
    show StableHlo.after hostOps2 (W4 m ρ c) (Proc.devRef .tc main_v6) = _
    after_results
    rfl
  have e4 : W4 m ρ c (Proc.devRef .tc main_v5) = Region1.G1 (V3 m ρ c main_v4) (V3 m ρ c main_v2) :=
    (W4_arr m ρ c 2).trans (Region1.final (V3 m ρ) c)
  have e2 : W2 m ρ c (Proc.devRef .tc main_v3) = Region0.G0 (V1 m ρ c main_v1) (V1 m ρ c main_v0) :=
    (W2_arr m ρ c 2).trans (Region0.final (V1 m ρ) c)
  rw [e5, e4, entry1_h, entry1_cv, e2, entry0_w, entry0_x]
  rfl

end

end Cert.KernelIdeal.Whole

end
-- ==== Proof.RefTaps.lean ====
/-
  The reference's nine updates, read at an entry.

  The reference pads `x` by one entry on each side of the two plane axes, cuts the nine 256×256 windows of the padded
  plane at offsets `(i, j)`, `i j < 3`, stacks them channel by channel, multiplies by the weights and cuts the stack
  apart again. So update `(i, j)` at `(k, r, c)` is the weight `w[9k + 3i + j, 256 r + c]` times the padded plane at
  `(k, r + i, c + j)`; and where `r + i = R + 1`, `c + j = C + 1` the padded plane's entry is `x[k, R, C]`.
-/
import proofs.«123624_j27659589386409_1_alg».proof.Proof.RefRead
import Idealize.ShloMosaic.Lib.KernelVsHost
import Idealize.ShloMosaic.Lib.ValueIdxRank6

set_option maxRecDepth 16384

noncomputable section

namespace Cert.ReferenceIdeal.RefTaps

open Cert.ReferenceIdeal Cert.ReferenceIdeal.Gen Cert.ReferenceIdeal.Read
open Idealize.ShloMosaic Idealize.ShloMosaic.ValueIdx

variable (x : (⟨S1x64x256x256, .f32⟩ : BufTy).Contents (Elt Ideal)) (w : (⟨S1x576x65536, .f32⟩ : BufTy).Contents (Elt Ideal))

/-- The padded plane inside its border is `x`. -/
theorem pad_interior (k : Fin 64) (R C : Fin 256) (r c : Fin 258) (hr : r.val = R.val + 1) (hc : c.val = C.val + 1) :
    val_main_v0 (F := Ideal) x (ix4 0 k r c) = x (ix4 0 k R C) := by
  unfold val_main_v0
  exact pad_apply_of_inside _ _ _ x _ pads_S1x64x256x256_S1x64x258x258_000_000_110_110 h_S_ (ix4 0 k r c) (ix4 0 k R C)
    (fun a => by
      match a with
      | ⟨0, _⟩ => show 0 = 0 + 0 * (0 + 1); omega
      | ⟨1, _⟩ => show k.val = 0 + k.val * (0 + 1); omega
      | ⟨2, _⟩ => show r.val = 1 + R.val * (0 + 1); omega
      | ⟨3, _⟩ => show c.val = 1 + C.val * (0 + 1); omega)

/-- Window `(0, 0)` of the stack, at an entry: the padded plane moved by `(0, 0)`. -/
theorem stack0 (k : Fin 64) (r c : Fin 256) :
    val_main_v19 (F := Ideal) x (ix5 0 k ⟨0, by decide⟩ r c)
      = val_main_v0 (F := Ideal) x (ix4 0 k ⟨r.val + 0, by have := r.isLt; omega⟩ ⟨c.val + 0, by have := c.isLt; omega⟩) := by
  unfold val_main_v19
  refine (concatenate_apply_piece (α := EReal) (t := S1x64x9x256x256) (2 : Fin 5)
    [⟨S1x64x1x256x256, val_main_v10 (F := Ideal) x⟩, ⟨S1x64x1x256x256, val_main_v11 (F := Ideal) x⟩, ⟨S1x64x1x256x256, val_main_v12 (F := Ideal) x⟩, ⟨S1x64x1x256x256, val_main_v13 (F := Ideal) x⟩, ⟨S1x64x1x256x256, val_main_v14 (F := Ideal) x⟩, ⟨S1x64x1x256x256, val_main_v15 (F := Ideal) x⟩, ⟨S1x64x1x256x256, val_main_v16 (F := Ideal) x⟩, ⟨S1x64x1x256x256, val_main_v17 (F := Ideal) x⟩, ⟨S1x64x1x256x256, val_main_v18 (F := Ideal) x⟩]
    concatenates_S1x64x1x256x256_S1x64x1x256x256_S1x64x1x256x256_S1x64x1x256x256_S1x64x1x256x256_S1x64x1x256x256_S1x64x1x256x256_S1x64x1x256x256_S1x64x1x256x256_S1x64x9x256x256_d2 (ix5 0 k ⟨0, by decide⟩ r c) 0 (by show 0 < 9; omega) S1x64x1x256x256
    (val_main_v10 (F := Ideal) x) rfl rfl 0 rfl (ix5 0 k 0 r c)
    (fun b hb => by
      match b with
      | ⟨0, _⟩ => rfl
      | ⟨1, _⟩ => rfl
      | ⟨2, _⟩ => exact absurd rfl hb
      | ⟨3, _⟩ => rfl
      | ⟨4, _⟩ => rfl)
    (by show 0 + 0 = 0; omega)).trans ?_
  rw [val_main_v10_apply, val_main_v1_apply]
  refine congrArg _ (funext fun a => Fin.ext ?_)
  match a with
  | ⟨0, _⟩ => rfl
  | ⟨1, _⟩ => rfl
  | ⟨2, _⟩ => show r.val = r.val + 0; omega
  | ⟨3, _⟩ => show c.val = c.val + 0; omega

/-- Window `(0, 1)` of the stack, at an entry: the padded plane moved by `(0, 1)`. -/
theorem stack1 (k : Fin 64) (r c : Fin 256) :
    val_main_v19 (F := Ideal) x (ix5 0 k ⟨1, by decide⟩ r c)
      = val_main_v0 (F := Ideal) x (ix4 0 k ⟨r.val + 0, by have := r.isLt; omega⟩ ⟨c.val + 1, by have := c.isLt; omega⟩) := by
  unfold val_main_v19
  refine (concatenate_apply_piece (α := EReal) (t := S1x64x9x256x256) (2 : Fin 5)
    [⟨S1x64x1x256x256, val_main_v10 (F := Ideal) x⟩, ⟨S1x64x1x256x256, val_main_v11 (F := Ideal) x⟩, ⟨S1x64x1x256x256, val_main_v12 (F := Ideal) x⟩, ⟨S1x64x1x256x256, val_main_v13 (F := Ideal) x⟩, ⟨S1x64x1x256x256, val_main_v14 (F := Ideal) x⟩, ⟨S1x64x1x256x256, val_main_v15 (F := Ideal) x⟩, ⟨S1x64x1x256x256, val_main_v16 (F := Ideal) x⟩, ⟨S1x64x1x256x256, val_main_v17 (F := Ideal) x⟩, ⟨S1x64x1x256x256, val_main_v18 (F := Ideal) x⟩]
    concatenates_S1x64x1x256x256_S1x64x1x256x256_S1x64x1x256x256_S1x64x1x256x256_S1x64x1x256x256_S1x64x1x256x256_S1x64x1x256x256_S1x64x1x256x256_S1x64x1x256x256_S1x64x9x256x256_d2 (ix5 0 k ⟨1, by decide⟩ r c) 1 (by show 1 < 9; omega) S1x64x1x256x256
    (val_main_v11 (F := Ideal) x) rfl rfl 1 rfl (ix5 0 k 0 r c)
    (fun b hb => by
      match b with
      | ⟨0, _⟩ => rfl
      | ⟨1, _⟩ => rfl
      | ⟨2, _⟩ => exact absurd rfl hb
      | ⟨3, _⟩ => rfl
      | ⟨4, _⟩ => rfl)
    (by show 1 + 0 = 1; omega)).trans ?_
  rw [val_main_v11_apply, val_main_v2_apply]
  refine congrArg _ (funext fun a => Fin.ext ?_)
  match a with
  | ⟨0, _⟩ => rfl
  | ⟨1, _⟩ => rfl
  | ⟨2, _⟩ => show r.val = r.val + 0; omega
  | ⟨3, _⟩ => show 1 + c.val = c.val + 1; omega

/-- Window `(0, 2)` of the stack, at an entry: the padded plane moved by `(0, 2)`. -/
theorem stack2 (k : Fin 64) (r c : Fin 256) :
    val_main_v19 (F := Ideal) x (ix5 0 k ⟨2, by decide⟩ r c)
      = val_main_v0 (F := Ideal) x (ix4 0 k ⟨r.val + 0, by have := r.isLt; omega⟩ ⟨c.val + 2, by have := c.isLt; omega⟩) := by
  unfold val_main_v19
  refine (concatenate_apply_piece (α := EReal) (t := S1x64x9x256x256) (2 : Fin 5)
    [⟨S1x64x1x256x256, val_main_v10 (F := Ideal) x⟩, ⟨S1x64x1x256x256, val_main_v11 (F := Ideal) x⟩, ⟨S1x64x1x256x256, val_main_v12 (F := Ideal) x⟩, ⟨S1x64x1x256x256, val_main_v13 (F := Ideal) x⟩, ⟨S1x64x1x256x256, val_main_v14 (F := Ideal) x⟩, ⟨S1x64x1x256x256, val_main_v15 (F := Ideal) x⟩, ⟨S1x64x1x256x256, val_main_v16 (F := Ideal) x⟩, ⟨S1x64x1x256x256, val_main_v17 (F := Ideal) x⟩, ⟨S1x64x1x256x256, val_main_v18 (F := Ideal) x⟩]
    concatenates_S1x64x1x256x256_S1x64x1x256x256_S1x64x1x256x256_S1x64x1x256x256_S1x64x1x256x256_S1x64x1x256x256_S1x64x1x256x256_S1x64x1x256x256_S1x64x1x256x256_S1x64x9x256x256_d2 (ix5 0 k ⟨2, by decide⟩ r c) 2 (by show 2 < 9; omega) S1x64x1x256x256
    (val_main_v12 (F := Ideal) x) rfl rfl 2 rfl (ix5 0 k 0 r c)
    (fun b hb => by
      match b with
      | ⟨0, _⟩ => rfl
      | ⟨1, _⟩ => rfl
      | ⟨2, _⟩ => exact absurd rfl hb
      | ⟨3, _⟩ => rfl
      | ⟨4, _⟩ => rfl)
    (by show 2 + 0 = 2; omega)).trans ?_
  rw [val_main_v12_apply, val_main_v3_apply]
  refine congrArg _ (funext fun a => Fin.ext ?_)
  match a with
  | ⟨0, _⟩ => rfl
  | ⟨1, _⟩ => rfl
  | ⟨2, _⟩ => show r.val = r.val + 0; omega
  | ⟨3, _⟩ => show 2 + c.val = c.val + 2; omega

/-- Window `(1, 0)` of the stack, at an entry: the padded plane moved by `(1, 0)`. -/
theorem stack3 (k : Fin 64) (r c : Fin 256) :
    val_main_v19 (F := Ideal) x (ix5 0 k ⟨3, by decide⟩ r c)
      = val_main_v0 (F := Ideal) x (ix4 0 k ⟨r.val + 1, by have := r.isLt; omega⟩ ⟨c.val + 0, by have := c.isLt; omega⟩) := by
  unfold val_main_v19
  refine (concatenate_apply_piece (α := EReal) (t := S1x64x9x256x256) (2 : Fin 5)
    [⟨S1x64x1x256x256, val_main_v10 (F := Ideal) x⟩, ⟨S1x64x1x256x256, val_main_v11 (F := Ideal) x⟩, ⟨S1x64x1x256x256, val_main_v12 (F := Ideal) x⟩, ⟨S1x64x1x256x256, val_main_v13 (F := Ideal) x⟩, ⟨S1x64x1x256x256, val_main_v14 (F := Ideal) x⟩, ⟨S1x64x1x256x256, val_main_v15 (F := Ideal) x⟩, ⟨S1x64x1x256x256, val_main_v16 (F := Ideal) x⟩, ⟨S1x64x1x256x256, val_main_v17 (F := Ideal) x⟩, ⟨S1x64x1x256x256, val_main_v18 (F := Ideal) x⟩]
    concatenates_S1x64x1x256x256_S1x64x1x256x256_S1x64x1x256x256_S1x64x1x256x256_S1x64x1x256x256_S1x64x1x256x256_S1x64x1x256x256_S1x64x1x256x256_S1x64x1x256x256_S1x64x9x256x256_d2 (ix5 0 k ⟨3, by decide⟩ r c) 3 (by show 3 < 9; omega) S1x64x1x256x256
    (val_main_v13 (F := Ideal) x) rfl rfl 3 rfl (ix5 0 k 0 r c)
    (fun b hb => by
      match b with
      | ⟨0, _⟩ => rfl
      | ⟨1, _⟩ => rfl
      | ⟨2, _⟩ => exact absurd rfl hb
      | ⟨3, _⟩ => rfl
      | ⟨4, _⟩ => rfl)
    (by show 3 + 0 = 3; omega)).trans ?_
  rw [val_main_v13_apply, val_main_v4_apply]
  refine congrArg _ (funext fun a => Fin.ext ?_)
  match a with
  | ⟨0, _⟩ => rfl
  | ⟨1, _⟩ => rfl
  | ⟨2, _⟩ => show 1 + r.val = r.val + 1; omega
  | ⟨3, _⟩ => show c.val = c.val + 0; omega

/-- Window `(1, 1)` of the stack, at an entry: the padded plane moved by `(1, 1)`. -/
theorem stack4 (k : Fin 64) (r c : Fin 256) :
    val_main_v19 (F := Ideal) x (ix5 0 k ⟨4, by decide⟩ r c)
      = val_main_v0 (F := Ideal) x (ix4 0 k ⟨r.val + 1, by have := r.isLt; omega⟩ ⟨c.val + 1, by have := c.isLt; omega⟩) := by
  unfold val_main_v19
  refine (concatenate_apply_piece (α := EReal) (t := S1x64x9x256x256) (2 : Fin 5)
    [⟨S1x64x1x256x256, val_main_v10 (F := Ideal) x⟩, ⟨S1x64x1x256x256, val_main_v11 (F := Ideal) x⟩, ⟨S1x64x1x256x256, val_main_v12 (F := Ideal) x⟩, ⟨S1x64x1x256x256, val_main_v13 (F := Ideal) x⟩, ⟨S1x64x1x256x256, val_main_v14 (F := Ideal) x⟩, ⟨S1x64x1x256x256, val_main_v15 (F := Ideal) x⟩, ⟨S1x64x1x256x256, val_main_v16 (F := Ideal) x⟩, ⟨S1x64x1x256x256, val_main_v17 (F := Ideal) x⟩, ⟨S1x64x1x256x256, val_main_v18 (F := Ideal) x⟩]
    concatenates_S1x64x1x256x256_S1x64x1x256x256_S1x64x1x256x256_S1x64x1x256x256_S1x64x1x256x256_S1x64x1x256x256_S1x64x1x256x256_S1x64x1x256x256_S1x64x1x256x256_S1x64x9x256x256_d2 (ix5 0 k ⟨4, by decide⟩ r c) 4 (by show 4 < 9; omega) S1x64x1x256x256
    (val_main_v14 (F := Ideal) x) rfl rfl 4 rfl (ix5 0 k 0 r c)
    (fun b hb => by
      match b with
      | ⟨0, _⟩ => rfl
      | ⟨1, _⟩ => rfl
      | ⟨2, _⟩ => exact absurd rfl hb
      | ⟨3, _⟩ => rfl
      | ⟨4, _⟩ => rfl)
    (by show 4 + 0 = 4; omega)).trans ?_
  rw [val_main_v14_apply, val_main_v5_apply]
  refine congrArg _ (funext fun a => Fin.ext ?_)
  match a with
  | ⟨0, _⟩ => rfl
  | ⟨1, _⟩ => rfl
  | ⟨2, _⟩ => show 1 + r.val = r.val + 1; omega
  | ⟨3, _⟩ => show 1 + c.val = c.val + 1; omega

/-- Window `(1, 2)` of the stack, at an entry: the padded plane moved by `(1, 2)`. -/
theorem stack5 (k : Fin 64) (r c : Fin 256) :
    val_main_v19 (F := Ideal) x (ix5 0 k ⟨5, by decide⟩ r c)
      = val_main_v0 (F := Ideal) x (ix4 0 k ⟨r.val + 1, by have := r.isLt; omega⟩ ⟨c.val + 2, by have := c.isLt; omega⟩) := by
  unfold val_main_v19
  refine (concatenate_apply_piece (α := EReal) (t := S1x64x9x256x256) (2 : Fin 5)
    [⟨S1x64x1x256x256, val_main_v10 (F := Ideal) x⟩, ⟨S1x64x1x256x256, val_main_v11 (F := Ideal) x⟩, ⟨S1x64x1x256x256, val_main_v12 (F := Ideal) x⟩, ⟨S1x64x1x256x256, val_main_v13 (F := Ideal) x⟩, ⟨S1x64x1x256x256, val_main_v14 (F := Ideal) x⟩, ⟨S1x64x1x256x256, val_main_v15 (F := Ideal) x⟩, ⟨S1x64x1x256x256, val_main_v16 (F := Ideal) x⟩, ⟨S1x64x1x256x256, val_main_v17 (F := Ideal) x⟩, ⟨S1x64x1x256x256, val_main_v18 (F := Ideal) x⟩]
    concatenates_S1x64x1x256x256_S1x64x1x256x256_S1x64x1x256x256_S1x64x1x256x256_S1x64x1x256x256_S1x64x1x256x256_S1x64x1x256x256_S1x64x1x256x256_S1x64x1x256x256_S1x64x9x256x256_d2 (ix5 0 k ⟨5, by decide⟩ r c) 5 (by show 5 < 9; omega) S1x64x1x256x256
    (val_main_v15 (F := Ideal) x) rfl rfl 5 rfl (ix5 0 k 0 r c)
    (fun b hb => by
      match b with
      | ⟨0, _⟩ => rfl
      | ⟨1, _⟩ => rfl
      | ⟨2, _⟩ => exact absurd rfl hb
      | ⟨3, _⟩ => rfl
      | ⟨4, _⟩ => rfl)
    (by show 5 + 0 = 5; omega)).trans ?_
  rw [val_main_v15_apply, val_main_v6_apply]
  refine congrArg _ (funext fun a => Fin.ext ?_)
  match a with
  | ⟨0, _⟩ => rfl
  | ⟨1, _⟩ => rfl
  | ⟨2, _⟩ => show 1 + r.val = r.val + 1; omega
  | ⟨3, _⟩ => show 2 + c.val = c.val + 2; omega

/-- Window `(2, 0)` of the stack, at an entry: the padded plane moved by `(2, 0)`. -/
theorem stack6 (k : Fin 64) (r c : Fin 256) :
    val_main_v19 (F := Ideal) x (ix5 0 k ⟨6, by decide⟩ r c)
      = val_main_v0 (F := Ideal) x (ix4 0 k ⟨r.val + 2, by have := r.isLt; omega⟩ ⟨c.val + 0, by have := c.isLt; omega⟩) := by
  unfold val_main_v19
  refine (concatenate_apply_piece (α := EReal) (t := S1x64x9x256x256) (2 : Fin 5)
    [⟨S1x64x1x256x256, val_main_v10 (F := Ideal) x⟩, ⟨S1x64x1x256x256, val_main_v11 (F := Ideal) x⟩, ⟨S1x64x1x256x256, val_main_v12 (F := Ideal) x⟩, ⟨S1x64x1x256x256, val_main_v13 (F := Ideal) x⟩, ⟨S1x64x1x256x256, val_main_v14 (F := Ideal) x⟩, ⟨S1x64x1x256x256, val_main_v15 (F := Ideal) x⟩, ⟨S1x64x1x256x256, val_main_v16 (F := Ideal) x⟩, ⟨S1x64x1x256x256, val_main_v17 (F := Ideal) x⟩, ⟨S1x64x1x256x256, val_main_v18 (F := Ideal) x⟩]
    concatenates_S1x64x1x256x256_S1x64x1x256x256_S1x64x1x256x256_S1x64x1x256x256_S1x64x1x256x256_S1x64x1x256x256_S1x64x1x256x256_S1x64x1x256x256_S1x64x1x256x256_S1x64x9x256x256_d2 (ix5 0 k ⟨6, by decide⟩ r c) 6 (by show 6 < 9; omega) S1x64x1x256x256
    (val_main_v16 (F := Ideal) x) rfl rfl 6 rfl (ix5 0 k 0 r c)
    (fun b hb => by
      match b with
      | ⟨0, _⟩ => rfl
      | ⟨1, _⟩ => rfl
      | ⟨2, _⟩ => exact absurd rfl hb
      | ⟨3, _⟩ => rfl
      | ⟨4, _⟩ => rfl)
    (by show 6 + 0 = 6; omega)).trans ?_
  rw [val_main_v16_apply, val_main_v7_apply]
  refine congrArg _ (funext fun a => Fin.ext ?_)
  match a with
  | ⟨0, _⟩ => rfl
  | ⟨1, _⟩ => rfl
  | ⟨2, _⟩ => show 2 + r.val = r.val + 2; omega
  | ⟨3, _⟩ => show c.val = c.val + 0; omega

/-- Window `(2, 1)` of the stack, at an entry: the padded plane moved by `(2, 1)`. -/
theorem stack7 (k : Fin 64) (r c : Fin 256) :
    val_main_v19 (F := Ideal) x (ix5 0 k ⟨7, by decide⟩ r c)
      = val_main_v0 (F := Ideal) x (ix4 0 k ⟨r.val + 2, by have := r.isLt; omega⟩ ⟨c.val + 1, by have := c.isLt; omega⟩) := by
  unfold val_main_v19
  refine (concatenate_apply_piece (α := EReal) (t := S1x64x9x256x256) (2 : Fin 5)
    [⟨S1x64x1x256x256, val_main_v10 (F := Ideal) x⟩, ⟨S1x64x1x256x256, val_main_v11 (F := Ideal) x⟩, ⟨S1x64x1x256x256, val_main_v12 (F := Ideal) x⟩, ⟨S1x64x1x256x256, val_main_v13 (F := Ideal) x⟩, ⟨S1x64x1x256x256, val_main_v14 (F := Ideal) x⟩, ⟨S1x64x1x256x256, val_main_v15 (F := Ideal) x⟩, ⟨S1x64x1x256x256, val_main_v16 (F := Ideal) x⟩, ⟨S1x64x1x256x256, val_main_v17 (F := Ideal) x⟩, ⟨S1x64x1x256x256, val_main_v18 (F := Ideal) x⟩]
    concatenates_S1x64x1x256x256_S1x64x1x256x256_S1x64x1x256x256_S1x64x1x256x256_S1x64x1x256x256_S1x64x1x256x256_S1x64x1x256x256_S1x64x1x256x256_S1x64x1x256x256_S1x64x9x256x256_d2 (ix5 0 k ⟨7, by decide⟩ r c) 7 (by show 7 < 9; omega) S1x64x1x256x256
    (val_main_v17 (F := Ideal) x) rfl rfl 7 rfl (ix5 0 k 0 r c)
    (fun b hb => by
      match b with
      | ⟨0, _⟩ => rfl
      | ⟨1, _⟩ => rfl
      | ⟨2, _⟩ => exact absurd rfl hb
      | ⟨3, _⟩ => rfl
      | ⟨4, _⟩ => rfl)
    (by show 7 + 0 = 7; omega)).trans ?_
  rw [val_main_v17_apply, val_main_v8_apply]
  refine congrArg _ (funext fun a => Fin.ext ?_)
  match a with
  | ⟨0, _⟩ => rfl
  | ⟨1, _⟩ => rfl
  | ⟨2, _⟩ => show 2 + r.val = r.val + 2; omega
  | ⟨3, _⟩ => show 1 + c.val = c.val + 1; omega

/-- Window `(2, 2)` of the stack, at an entry: the padded plane moved by `(2, 2)`. -/
theorem stack8 (k : Fin 64) (r c : Fin 256) :
    val_main_v19 (F := Ideal) x (ix5 0 k ⟨8, by decide⟩ r c)
      = val_main_v0 (F := Ideal) x (ix4 0 k ⟨r.val + 2, by have := r.isLt; omega⟩ ⟨c.val + 2, by have := c.isLt; omega⟩) := by
  unfold val_main_v19
  refine (concatenate_apply_piece (α := EReal) (t := S1x64x9x256x256) (2 : Fin 5)
    [⟨S1x64x1x256x256, val_main_v10 (F := Ideal) x⟩, ⟨S1x64x1x256x256, val_main_v11 (F := Ideal) x⟩, ⟨S1x64x1x256x256, val_main_v12 (F := Ideal) x⟩, ⟨S1x64x1x256x256, val_main_v13 (F := Ideal) x⟩, ⟨S1x64x1x256x256, val_main_v14 (F := Ideal) x⟩, ⟨S1x64x1x256x256, val_main_v15 (F := Ideal) x⟩, ⟨S1x64x1x256x256, val_main_v16 (F := Ideal) x⟩, ⟨S1x64x1x256x256, val_main_v17 (F := Ideal) x⟩, ⟨S1x64x1x256x256, val_main_v18 (F := Ideal) x⟩]
    concatenates_S1x64x1x256x256_S1x64x1x256x256_S1x64x1x256x256_S1x64x1x256x256_S1x64x1x256x256_S1x64x1x256x256_S1x64x1x256x256_S1x64x1x256x256_S1x64x1x256x256_S1x64x9x256x256_d2 (ix5 0 k ⟨8, by decide⟩ r c) 8 (by show 8 < 9; omega) S1x64x1x256x256
    (val_main_v18 (F := Ideal) x) rfl rfl 8 rfl (ix5 0 k 0 r c)
    (fun b hb => by
      match b with
      | ⟨0, _⟩ => rfl
      | ⟨1, _⟩ => rfl
      | ⟨2, _⟩ => exact absurd rfl hb
      | ⟨3, _⟩ => rfl
      | ⟨4, _⟩ => rfl)
    (by show 8 + 0 = 8; omega)).trans ?_
  rw [val_main_v18_apply, val_main_v9_apply]
  refine congrArg _ (funext fun a => Fin.ext ?_)
  match a with
  | ⟨0, _⟩ => rfl
  | ⟨1, _⟩ => rfl
  | ⟨2, _⟩ => show 2 + r.val = r.val + 2; omega
  | ⟨3, _⟩ => show 2 + c.val = c.val + 2; omega

/-- The weighted stack cut back into `[1, 64, 3, 3, 256, 256]`, at an entry: the weight times the stack's entry. -/
theorem weighted_apply (k : Fin 64) (i j : Fin 3) (r c : Fin 256) :
    val_main_v22 (F := Ideal) x w (ix6 0 k i j r c)
      = w (ix3 0 ⟨9 * k.val + (3 * i.val + j.val), by have := k.isLt; have := i.isLt; have := j.isLt; omega⟩
            ⟨256 * r.val + c.val, by have := r.isLt; have := c.isLt; omega⟩)
        * val_main_v19 (F := Ideal) x (ix5 0 k ⟨3 * i.val + j.val, by have := i.isLt; have := j.isLt; omega⟩ r c) := by
  have hk := k.isLt; have hi := i.isLt; have hj := j.isLt; have hr := r.isLt; have hc := c.isLt
  unfold val_main_v22
  rw [shapeCast_apply _ shapeCasts_S1x576x65536_S1x64x3x3x256x256 (ix6 0 k i j r c)
    (ix3 0 ⟨9 * k.val + (3 * i.val + j.val), by omega⟩ ⟨256 * r.val + c.val, by omega⟩)
    (by rw [Shape.rowMajor_val_three, Shape.rowMajor_val_six]
        show (0 * 576 + (9 * k.val + (3 * i.val + j.val))) * 65536 + (256 * r.val + c.val)
          = ((((0 * 64 + k.val) * 3 + i.val) * 3 + j.val) * 256 + r.val) * 256 + c.val
        omega)]
  rw [val_main_v21_apply, val_main_v20_apply]
  refine congrArg (w _ * ·) (congrArg _ (funext fun a => Fin.ext ?_))
  match a with
  | ⟨0, _⟩ => rfl
  | ⟨1, _⟩ => show ((0 * 576 + (9 * k.val + (3 * i.val + j.val))) * 65536 + (256 * r.val + c.val)) / 589824 % 64 = k.val; omega
  | ⟨2, _⟩ => show ((0 * 576 + (9 * k.val + (3 * i.val + j.val))) * 65536 + (256 * r.val + c.val)) / 65536 % 9 = 3 * i.val + j.val; omega
  | ⟨3, _⟩ => show ((0 * 576 + (9 * k.val + (3 * i.val + j.val))) * 65536 + (256 * r.val + c.val)) / 256 % 256 = r.val; omega
  | ⟨4, _⟩ => show ((0 * 576 + (9 * k.val + (3 * i.val + j.val))) * 65536 + (256 * r.val + c.val)) % 256 = c.val; omega

/-- One `[1, 64, 1, 1, 256, 256]` slab of a `[1, 64, 3, 3, 256, 256]` array, flattened to `[1, 64, 256, 256]`, at an entry. -/
theorem slab_apply {α : Type} (y : S1x64x3x3x256x256.Idx → α) (i j : Nat)
    (hs : S1x64x3x3x256x256.Slices ![0, 0, i, j, 0, 0] S1x64x1x1x256x256)
    (hcast : S1x64x1x1x256x256.ShapeCasts S1x64x256x256) (k : Fin 64) (r c : Fin 256) :
    shapeCast S1x64x256x256 (extractStridedSlice S1x64x1x1x256x256 ![0, 0, i, j, 0, 0] y hs) hcast (ix4 0 k r c)
      = y (ix6 0 k ⟨i, hs.2 2⟩ ⟨j, hs.2 3⟩ r c) := by
  rw [shapeCast_apply _ hcast (ix4 0 k r c) (ix6 0 k 0 0 r c)
    (by rw [Shape.rowMajor_val_six, Shape.rowMajor_val_four]
        show ((((0 * 64 + k.val) * 1 + 0) * 1 + 0) * 256 + r.val) * 256 + c.val = ((0 * 64 + k.val) * 256 + r.val) * 256 + c.val
        omega)]
  exact extractStridedSlice_apply _ y hs _ _ (fun a => by
    match a with
    | ⟨0, _⟩ => show 0 = 0 + 0; omega
    | ⟨1, _⟩ => show k.val = 0 + k.val; omega
    | ⟨2, _⟩ => show i = i + 0; omega
    | ⟨3, _⟩ => show j = j + 0; omega
    | ⟨4, _⟩ => show r.val = 0 + r.val; omega
    | ⟨5, _⟩ => show c.val = 0 + c.val; omega)

/-- Update `(0, 0)` at `(k, r, c)`, where `(r + 0, c + 0) = (R + 1, C + 1)`: the weight times `x[k, R, C]`. -/
theorem upd0 (k : Fin 64) (R C r c : Fin 256) (hr : r.val + 0 = R.val + 1) (hc : c.val + 0 = C.val + 1) :
    val_main_v25 (F := Ideal) x w (ix4 0 k r c)
      = w (ix3 0 ⟨9 * k.val + 0, by have := k.isLt; omega⟩ ⟨256 * r.val + c.val, by have := r.isLt; have := c.isLt; omega⟩)
        * x (ix4 0 k R C) := by
  have e1 : val_main_v25 (F := Ideal) x w (ix4 0 k r c)
      = val_main_v22 (F := Ideal) x w (ix6 0 k ⟨0, by decide⟩ ⟨0, by decide⟩ r c) :=
    slab_apply (val_main_v22 (F := Ideal) x w) 0 0 slices_S1x64x3x3x256x256_S1x64x1x1x256x256_0_0_0_0_0_0
      shapeCasts_S1x64x1x1x256x256_S1x64x256x256 k r c
  rw [e1, weighted_apply x w k ⟨0, by decide⟩ ⟨0, by decide⟩ r c]
  have e2 : val_main_v19 (F := Ideal) x (ix5 0 k ⟨3 * (⟨0, by decide⟩ : Fin 3).val + (⟨0, by decide⟩ : Fin 3).val, by decide⟩ r c)
      = x (ix4 0 k R C) :=
    (stack0 x k r c).trans (pad_interior x k R C _ _ (by show r.val + 0 = R.val + 1; exact hr) (by show c.val + 0 = C.val + 1; exact hc))
  rw [e2]
  rfl

/-- Update `(0, 1)` at `(k, r, c)`, where `(r + 0, c + 1) = (R + 1, C + 1)`: the weight times `x[k, R, C]`. -/
theorem upd1 (k : Fin 64) (R C r c : Fin 256) (hr : r.val + 0 = R.val + 1) (hc : c.val + 1 = C.val + 1) :
    val_main_v31 (F := Ideal) x w (ix4 0 k r c)
      = w (ix3 0 ⟨9 * k.val + 1, by have := k.isLt; omega⟩ ⟨256 * r.val + c.val, by have := r.isLt; have := c.isLt; omega⟩)
        * x (ix4 0 k R C) := by
  have e1 : val_main_v31 (F := Ideal) x w (ix4 0 k r c)
      = val_main_v22 (F := Ideal) x w (ix6 0 k ⟨0, by decide⟩ ⟨1, by decide⟩ r c) :=
    slab_apply (val_main_v22 (F := Ideal) x w) 0 1 slices_S1x64x3x3x256x256_S1x64x1x1x256x256_0_0_0_1_0_0
      shapeCasts_S1x64x1x1x256x256_S1x64x256x256 k r c
  rw [e1, weighted_apply x w k ⟨0, by decide⟩ ⟨1, by decide⟩ r c]
  have e2 : val_main_v19 (F := Ideal) x (ix5 0 k ⟨3 * (⟨0, by decide⟩ : Fin 3).val + (⟨1, by decide⟩ : Fin 3).val, by decide⟩ r c)
      = x (ix4 0 k R C) :=
    (stack1 x k r c).trans (pad_interior x k R C _ _ (by show r.val + 0 = R.val + 1; exact hr) (by show c.val + 1 = C.val + 1; exact hc))
  rw [e2]
  rfl

/-- Update `(0, 2)` at `(k, r, c)`, where `(r + 0, c + 2) = (R + 1, C + 1)`: the weight times `x[k, R, C]`. -/
theorem upd2 (k : Fin 64) (R C r c : Fin 256) (hr : r.val + 0 = R.val + 1) (hc : c.val + 2 = C.val + 1) :
    val_main_v37 (F := Ideal) x w (ix4 0 k r c)
      = w (ix3 0 ⟨9 * k.val + 2, by have := k.isLt; omega⟩ ⟨256 * r.val + c.val, by have := r.isLt; have := c.isLt; omega⟩)
        * x (ix4 0 k R C) := by
  have e1 : val_main_v37 (F := Ideal) x w (ix4 0 k r c)
      = val_main_v22 (F := Ideal) x w (ix6 0 k ⟨0, by decide⟩ ⟨2, by decide⟩ r c) :=
    slab_apply (val_main_v22 (F := Ideal) x w) 0 2 slices_S1x64x3x3x256x256_S1x64x1x1x256x256_0_0_0_2_0_0
      shapeCasts_S1x64x1x1x256x256_S1x64x256x256 k r c
  rw [e1, weighted_apply x w k ⟨0, by decide⟩ ⟨2, by decide⟩ r c]
  have e2 : val_main_v19 (F := Ideal) x (ix5 0 k ⟨3 * (⟨0, by decide⟩ : Fin 3).val + (⟨2, by decide⟩ : Fin 3).val, by decide⟩ r c)
      = x (ix4 0 k R C) :=
    (stack2 x k r c).trans (pad_interior x k R C _ _ (by show r.val + 0 = R.val + 1; exact hr) (by show c.val + 2 = C.val + 1; exact hc))
  rw [e2]
  rfl

/-- Update `(1, 0)` at `(k, r, c)`, where `(r + 1, c + 0) = (R + 1, C + 1)`: the weight times `x[k, R, C]`. -/
theorem upd3 (k : Fin 64) (R C r c : Fin 256) (hr : r.val + 1 = R.val + 1) (hc : c.val + 0 = C.val + 1) :
    val_main_v43 (F := Ideal) x w (ix4 0 k r c)
      = w (ix3 0 ⟨9 * k.val + 3, by have := k.isLt; omega⟩ ⟨256 * r.val + c.val, by have := r.isLt; have := c.isLt; omega⟩)
        * x (ix4 0 k R C) := by
  have e1 : val_main_v43 (F := Ideal) x w (ix4 0 k r c)
      = val_main_v22 (F := Ideal) x w (ix6 0 k ⟨1, by decide⟩ ⟨0, by decide⟩ r c) :=
    slab_apply (val_main_v22 (F := Ideal) x w) 1 0 slices_S1x64x3x3x256x256_S1x64x1x1x256x256_0_0_1_0_0_0
      shapeCasts_S1x64x1x1x256x256_S1x64x256x256 k r c
  rw [e1, weighted_apply x w k ⟨1, by decide⟩ ⟨0, by decide⟩ r c]
  have e2 : val_main_v19 (F := Ideal) x (ix5 0 k ⟨3 * (⟨1, by decide⟩ : Fin 3).val + (⟨0, by decide⟩ : Fin 3).val, by decide⟩ r c)
      = x (ix4 0 k R C) :=
    (stack3 x k r c).trans (pad_interior x k R C _ _ (by show r.val + 1 = R.val + 1; exact hr) (by show c.val + 0 = C.val + 1; exact hc))
  rw [e2]
  rfl

/-- Update `(1, 1)` at `(k, r, c)`, where `(r + 1, c + 1) = (R + 1, C + 1)`: the weight times `x[k, R, C]`. -/
theorem upd4 (k : Fin 64) (R C r c : Fin 256) (hr : r.val + 1 = R.val + 1) (hc : c.val + 1 = C.val + 1) :
    val_main_v49 (F := Ideal) x w (ix4 0 k r c)
      = w (ix3 0 ⟨9 * k.val + 4, by have := k.isLt; omega⟩ ⟨256 * r.val + c.val, by have := r.isLt; have := c.isLt; omega⟩)
        * x (ix4 0 k R C) := by
  have e1 : val_main_v49 (F := Ideal) x w (ix4 0 k r c)
      = val_main_v22 (F := Ideal) x w (ix6 0 k ⟨1, by decide⟩ ⟨1, by decide⟩ r c) :=
    slab_apply (val_main_v22 (F := Ideal) x w) 1 1 slices_S1x64x3x3x256x256_S1x64x1x1x256x256_0_0_1_1_0_0
      shapeCasts_S1x64x1x1x256x256_S1x64x256x256 k r c
  rw [e1, weighted_apply x w k ⟨1, by decide⟩ ⟨1, by decide⟩ r c]
  have e2 : val_main_v19 (F := Ideal) x (ix5 0 k ⟨3 * (⟨1, by decide⟩ : Fin 3).val + (⟨1, by decide⟩ : Fin 3).val, by decide⟩ r c)
      = x (ix4 0 k R C) :=
    (stack4 x k r c).trans (pad_interior x k R C _ _ (by show r.val + 1 = R.val + 1; exact hr) (by show c.val + 1 = C.val + 1; exact hc))
  rw [e2]
  rfl

/-- Update `(1, 2)` at `(k, r, c)`, where `(r + 1, c + 2) = (R + 1, C + 1)`: the weight times `x[k, R, C]`. -/
theorem upd5 (k : Fin 64) (R C r c : Fin 256) (hr : r.val + 1 = R.val + 1) (hc : c.val + 2 = C.val + 1) :
    val_main_v55 (F := Ideal) x w (ix4 0 k r c)
      = w (ix3 0 ⟨9 * k.val + 5, by have := k.isLt; omega⟩ ⟨256 * r.val + c.val, by have := r.isLt; have := c.isLt; omega⟩)
        * x (ix4 0 k R C) := by
  have e1 : val_main_v55 (F := Ideal) x w (ix4 0 k r c)
      = val_main_v22 (F := Ideal) x w (ix6 0 k ⟨1, by decide⟩ ⟨2, by decide⟩ r c) :=
    slab_apply (val_main_v22 (F := Ideal) x w) 1 2 slices_S1x64x3x3x256x256_S1x64x1x1x256x256_0_0_1_2_0_0
      shapeCasts_S1x64x1x1x256x256_S1x64x256x256 k r c
  rw [e1, weighted_apply x w k ⟨1, by decide⟩ ⟨2, by decide⟩ r c]
  have e2 : val_main_v19 (F := Ideal) x (ix5 0 k ⟨3 * (⟨1, by decide⟩ : Fin 3).val + (⟨2, by decide⟩ : Fin 3).val, by decide⟩ r c)
      = x (ix4 0 k R C) :=
    (stack5 x k r c).trans (pad_interior x k R C _ _ (by show r.val + 1 = R.val + 1; exact hr) (by show c.val + 2 = C.val + 1; exact hc))
  rw [e2]
  rfl

/-- Update `(2, 0)` at `(k, r, c)`, where `(r + 2, c + 0) = (R + 1, C + 1)`: the weight times `x[k, R, C]`. -/
theorem upd6 (k : Fin 64) (R C r c : Fin 256) (hr : r.val + 2 = R.val + 1) (hc : c.val + 0 = C.val + 1) :
    val_main_v61 (F := Ideal) x w (ix4 0 k r c)
      = w (ix3 0 ⟨9 * k.val + 6, by have := k.isLt; omega⟩ ⟨256 * r.val + c.val, by have := r.isLt; have := c.isLt; omega⟩)
        * x (ix4 0 k R C) := by
  have e1 : val_main_v61 (F := Ideal) x w (ix4 0 k r c)
      = val_main_v22 (F := Ideal) x w (ix6 0 k ⟨2, by decide⟩ ⟨0, by decide⟩ r c) :=
    slab_apply (val_main_v22 (F := Ideal) x w) 2 0 slices_S1x64x3x3x256x256_S1x64x1x1x256x256_0_0_2_0_0_0
      shapeCasts_S1x64x1x1x256x256_S1x64x256x256 k r c
  rw [e1, weighted_apply x w k ⟨2, by decide⟩ ⟨0, by decide⟩ r c]
  have e2 : val_main_v19 (F := Ideal) x (ix5 0 k ⟨3 * (⟨2, by decide⟩ : Fin 3).val + (⟨0, by decide⟩ : Fin 3).val, by decide⟩ r c)
      = x (ix4 0 k R C) :=
    (stack6 x k r c).trans (pad_interior x k R C _ _ (by show r.val + 2 = R.val + 1; exact hr) (by show c.val + 0 = C.val + 1; exact hc))
  rw [e2]
  rfl

/-- Update `(2, 1)` at `(k, r, c)`, where `(r + 2, c + 1) = (R + 1, C + 1)`: the weight times `x[k, R, C]`. -/
theorem upd7 (k : Fin 64) (R C r c : Fin 256) (hr : r.val + 2 = R.val + 1) (hc : c.val + 1 = C.val + 1) :
    val_main_v67 (F := Ideal) x w (ix4 0 k r c)
      = w (ix3 0 ⟨9 * k.val + 7, by have := k.isLt; omega⟩ ⟨256 * r.val + c.val, by have := r.isLt; have := c.isLt; omega⟩)
        * x (ix4 0 k R C) := by
  have e1 : val_main_v67 (F := Ideal) x w (ix4 0 k r c)
      = val_main_v22 (F := Ideal) x w (ix6 0 k ⟨2, by decide⟩ ⟨1, by decide⟩ r c) :=
    slab_apply (val_main_v22 (F := Ideal) x w) 2 1 slices_S1x64x3x3x256x256_S1x64x1x1x256x256_0_0_2_1_0_0
      shapeCasts_S1x64x1x1x256x256_S1x64x256x256 k r c
  rw [e1, weighted_apply x w k ⟨2, by decide⟩ ⟨1, by decide⟩ r c]
  have e2 : val_main_v19 (F := Ideal) x (ix5 0 k ⟨3 * (⟨2, by decide⟩ : Fin 3).val + (⟨1, by decide⟩ : Fin 3).val, by decide⟩ r c)
      = x (ix4 0 k R C) :=
    (stack7 x k r c).trans (pad_interior x k R C _ _ (by show r.val + 2 = R.val + 1; exact hr) (by show c.val + 1 = C.val + 1; exact hc))
  rw [e2]
  rfl

/-- Update `(2, 2)` at `(k, r, c)`, where `(r + 2, c + 2) = (R + 1, C + 1)`: the weight times `x[k, R, C]`. -/
theorem upd8 (k : Fin 64) (R C r c : Fin 256) (hr : r.val + 2 = R.val + 1) (hc : c.val + 2 = C.val + 1) :
    val_main_v73 (F := Ideal) x w (ix4 0 k r c)
      = w (ix3 0 ⟨9 * k.val + 8, by have := k.isLt; omega⟩ ⟨256 * r.val + c.val, by have := r.isLt; have := c.isLt; omega⟩)
        * x (ix4 0 k R C) := by
  have e1 : val_main_v73 (F := Ideal) x w (ix4 0 k r c)
      = val_main_v22 (F := Ideal) x w (ix6 0 k ⟨2, by decide⟩ ⟨2, by decide⟩ r c) :=
    slab_apply (val_main_v22 (F := Ideal) x w) 2 2 slices_S1x64x3x3x256x256_S1x64x1x1x256x256_0_0_2_2_0_0
      shapeCasts_S1x64x1x1x256x256_S1x64x256x256 k r c
  rw [e1, weighted_apply x w k ⟨2, by decide⟩ ⟨2, by decide⟩ r c]
  have e2 : val_main_v19 (F := Ideal) x (ix5 0 k ⟨3 * (⟨2, by decide⟩ : Fin 3).val + (⟨2, by decide⟩ : Fin 3).val, by decide⟩ r c)
      = x (ix4 0 k R C) :=
    (stack8 x k r c).trans (pad_interior x k R C _ _ (by show r.val + 2 = R.val + 1; exact hr) (by show c.val + 2 = C.val + 1; exact hc))
  rw [e2]
  rfl

end Cert.ReferenceIdeal.RefTaps

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibWindowScatter.lean ====
/-
  One window scattered into an array, read at an index.

  `out.at[:, :, p:p+h, q:q+w].add(u)` for an array `out : [A, B, H, W]` and a window `u : [A, B, h, w]`: the
  scatter carries ONE start index, the pair `(p, q)` for the last two axes, and every axis of the update is a
  window axis. Update entry `(a, b, r, c)` lands on entry `(a, b, p + r, q + c)`; distinct entries land on distinct
  places, so an element of the result is the operand's element plus the one update entry that lands on it, or the
  operand's element alone when none does (the element lies outside the window).
-/
import proofs.«123624_j27659589386409_1_alg».proof.Proof.LibScatterRows

noncomputable section

namespace Idealize.ShloMosaic.WindowScatter

open Idealize.ShloMosaic Idealize.ShloMosaic.ValueIdx Idealize.ShloMosaic.ScatterRows

variable {α : Type} [AddCommMonoid α]

/-- An add-scatter read at an element exactly one update entry lands on: the operand's element plus that entry. -/
theorem scatter_add_of_unique {s si u : Shape} {w : Nat} (d : ScatterDims s si u) (f : α → α → α) (hf : ∀ a b, f a b = a + b)
    (x : s.Idx → α) (idx : IVec si w) (upd : u.Idx → α) (i : s.Idx) (j0 : u.Idx)
    (h0 : d.resultIdx? j0 idx = some i) (huniq : ∀ j, d.resultIdx? j idx = some i → j = j0) :
    Host.scatter d f x idx upd i = x i + upd j0 := by
  rw [scatter_add_apply d f hf]
  congr 1
  rw [Finset.sum_eq_single j0]
  · rw [if_pos h0]
  · intro j _ hj
    rw [if_neg fun h => hj (huniq j h)]
  · intro h; exact absurd (Finset.mem_univ j0) h

/-- An add-scatter read at an element no update entry lands on: the operand's element. -/
theorem scatter_add_of_none {s si u : Shape} {w : Nat} (d : ScatterDims s si u) (f : α → α → α) (hf : ∀ a b, f a b = a + b)
    (x : s.Idx → α) (idx : IVec si w) (upd : u.Idx → α) (i : s.Idx)
    (hnone : ∀ j, d.resultIdx? j idx ≠ some i) :
    Host.scatter d f x idx upd i = x i := by
  rw [scatter_add_apply d f hf, Finset.sum_eq_zero (fun j _ => if_neg (hnone j)), add_zero]

/-- The dimension numbers of a whole-window scatter into the last two axes of a rank-four array. -/
abbrev winDims (A B H W h w : Nat)
    (wf : ScatterDims.WF ⟨4, ![A, B, H, W]⟩ ⟨1, ![2]⟩ ⟨4, ![A, B, h, w]⟩ [0, 1, 2, 3] [] [2, 3] 0) :
    ScatterDims ⟨4, ![A, B, H, W]⟩ ⟨1, ![2]⟩ ⟨4, ![A, B, h, w]⟩ where
  updateWindowDims := [0, 1, 2, 3]
  insertedWindowDims := []
  scatterDimsToOperandDims := [2, 3]
  indexVectorDim := 0
  wf := wf

section Win

variable {A B H W h w n : Nat}
  (wf : ScatterDims.WF ⟨4, ![A, B, H, W]⟩ ⟨1, ![2]⟩ ⟨4, ![A, B, h, w]⟩ [0, 1, 2, 3] [] [2, 3] 0)

theorem win_start0 (j : (⟨4, ![A, B, h, w]⟩ : Shape).Idx) (idx : IVec ⟨1, ![2]⟩ n) :
    (winDims A B H W h w wf).start j idx 0 = 0 := by
  unfold ScatterDims.start
  rw [dif_neg (fun h' => by simp at h')]

theorem win_start1 (j : (⟨4, ![A, B, h, w]⟩ : Shape).Idx) (idx : IVec ⟨1, ![2]⟩ n) :
    (winDims A B H W h w wf).start j idx 1 = 0 := by
  unfold ScatterDims.start
  rw [dif_neg (fun h' => by simp at h')]

theorem win_start2 (j : (⟨4, ![A, B, h, w]⟩ : Shape).Idx) (idx : IVec ⟨1, ![2]⟩ n) :
    (winDims A B H W h w wf).start j idx 2 = (idx (ix1 0)).toInt := by
  unfold ScatterDims.start
  rw [dif_pos (show (2 : Fin 4) ∈ (winDims A B H W h w wf).scatterDimsToOperandDims from by simp)]
  have hsi : (winDims A B H W h w wf).siIdx j ⟨List.idxOf (2 : Fin 4) (winDims A B H W h w wf).scatterDimsToOperandDims,
      List.idxOf_lt_length_iff.2 (by simp)⟩ = ix1 0 := by
    funext b; refine Fin.ext ?_
    match b with
    | ⟨0, _⟩ => rfl
  rw [hsi]

theorem win_start3 (j : (⟨4, ![A, B, h, w]⟩ : Shape).Idx) (idx : IVec ⟨1, ![2]⟩ n) :
    (winDims A B H W h w wf).start j idx 3 = (idx (ix1 1)).toInt := by
  unfold ScatterDims.start
  rw [dif_pos (show (3 : Fin 4) ∈ (winDims A B H W h w wf).scatterDimsToOperandDims from by simp)]
  have hsi : (winDims A B H W h w wf).siIdx j ⟨List.idxOf (3 : Fin 4) (winDims A B H W h w wf).scatterDimsToOperandDims,
      List.idxOf_lt_length_iff.2 (by simp)⟩ = ix1 1 := by
    funext b; refine Fin.ext ?_
    match b with
    | ⟨0, _⟩ => rfl
  rw [hsi]

theorem win_window (j : (⟨4, ![A, B, h, w]⟩ : Shape).Idx) (a : Fin 4) :
    (winDims A B H W h w wf).window j a = (j a).val := by
  unfold ScatterDims.window
  rw [dif_pos (show a ∈ (winDims A B H W h w wf).sKept from
    List.mem_filter.2 ⟨List.mem_finRange _, by simp⟩)]
  match a with
  | ⟨0, _⟩ => rfl
  | ⟨1, _⟩ => rfl
  | ⟨2, _⟩ => rfl
  | ⟨3, _⟩ => rfl

/-- Update entry `j` lands on `i` exactly when the first two coordinates agree and the last two are `j`'s moved by
    the start `(p, q)`. -/
theorem win_resultIdx?_eq_some (j : (⟨4, ![A, B, h, w]⟩ : Shape).Idx) (idx : IVec ⟨1, ![2]⟩ n) (p q : Nat)
    (hp : (idx (ix1 0)).toInt = (p : ℤ)) (hq : (idx (ix1 1)).toInt = (q : ℤ))
    (i : (⟨4, ![A, B, H, W]⟩ : Shape).Idx) :
    (winDims A B H W h w wf).resultIdx? j idx = some i
      ↔ (j 0).val = (i 0).val ∧ (j 1).val = (i 1).val ∧ p + (j 2).val = (i 2).val ∧ q + (j 3).val = (i 3).val := by
  unfold ScatterDims.resultIdx?
  constructor
  · intro hh
    split at hh
    · next hc =>
      have hv : ∀ a, ((winDims A B H W h w wf).start j idx a + (winDims A B H W h w wf).window j a).toNat = (i a).val :=
        fun a => congrArg Fin.val (congrFun (Option.some.inj hh) a)
      have hv0 := hv 0; have hv1 := hv 1; have hv2 := hv 2; have hv3 := hv 3
      rw [win_start0, win_window] at hv0
      rw [win_start1, win_window] at hv1
      rw [win_start2, win_window, hp] at hv2
      rw [win_start3, win_window, hq] at hv3
      refine ⟨by omega, by omega, by omega, by omega⟩
    · exact absurd hh (by simp)
  · rintro ⟨h0, h1, h2, h3⟩
    have hc : ∀ a, 0 ≤ (winDims A B H W h w wf).start j idx a + (winDims A B H W h w wf).window j a ∧
        (winDims A B H W h w wf).start j idx a + (winDims A B H W h w wf).window j a
          < (⟨4, ![A, B, H, W]⟩ : Shape).size a := by
      intro a
      match a with
      | ⟨0, _⟩ =>
        show 0 ≤ (winDims A B H W h w wf).start j idx 0 + (winDims A B H W h w wf).window j 0 ∧
          (winDims A B H W h w wf).start j idx 0 + (winDims A B H W h w wf).window j 0 < (A : ℤ)
        rw [win_start0, win_window]
        have := (i 0).isLt
        have e : (⟨4, ![A, B, H, W]⟩ : Shape).size 0 = A := rfl
        constructor <;> omega
      | ⟨1, _⟩ =>
        show 0 ≤ (winDims A B H W h w wf).start j idx 1 + (winDims A B H W h w wf).window j 1 ∧
          (winDims A B H W h w wf).start j idx 1 + (winDims A B H W h w wf).window j 1 < (B : ℤ)
        rw [win_start1, win_window]
        have := (i 1).isLt
        have e : (⟨4, ![A, B, H, W]⟩ : Shape).size 1 = B := rfl
        constructor <;> omega
      | ⟨2, _⟩ =>
        show 0 ≤ (winDims A B H W h w wf).start j idx 2 + (winDims A B H W h w wf).window j 2 ∧
          (winDims A B H W h w wf).start j idx 2 + (winDims A B H W h w wf).window j 2 < (H : ℤ)
        rw [win_start2, win_window, hp]
        have := (i 2).isLt
        have e : (⟨4, ![A, B, H, W]⟩ : Shape).size 2 = H := rfl
        constructor <;> omega
      | ⟨3, _⟩ =>
        show 0 ≤ (winDims A B H W h w wf).start j idx 3 + (winDims A B H W h w wf).window j 3 ∧
          (winDims A B H W h w wf).start j idx 3 + (winDims A B H W h w wf).window j 3 < (W : ℤ)
        rw [win_start3, win_window, hq]
        have := (i 3).isLt
        have e : (⟨4, ![A, B, H, W]⟩ : Shape).size 3 = W := rfl
        constructor <;> omega
    rw [dif_pos hc]
    congr 1
    funext a
    refine Fin.ext ?_
    match a with
    | ⟨0, _⟩ =>
      show ((winDims A B H W h w wf).start j idx 0 + (winDims A B H W h w wf).window j 0).toNat = (i 0).val
      rw [win_start0, win_window]; omega
    | ⟨1, _⟩ =>
      show ((winDims A B H W h w wf).start j idx 1 + (winDims A B H W h w wf).window j 1).toNat = (i 1).val
      rw [win_start1, win_window]; omega
    | ⟨2, _⟩ =>
      show ((winDims A B H W h w wf).start j idx 2 + (winDims A B H W h w wf).window j 2).toNat = (i 2).val
      rw [win_start2, win_window, hp]; omega
    | ⟨3, _⟩ =>
      show ((winDims A B H W h w wf).start j idx 3 + (winDims A B H W h w wf).window j 3).toNat = (i 3).val
      rw [win_start3, win_window, hq]; omega

/-- THE WINDOW SCATTER READ INSIDE THE WINDOW: at `(a, b, p + r, q + c)` the operand's entry plus the update's
    entry `(a, b, r, c)`. -/
theorem win_scatter_inside (f : α → α → α) (hf : ∀ a b, f a b = a + b)
    (x : (⟨4, ![A, B, H, W]⟩ : Shape).Idx → α) (idx : IVec ⟨1, ![2]⟩ n) (upd : (⟨4, ![A, B, h, w]⟩ : Shape).Idx → α)
    (p q : Nat) (hp : (idx (ix1 0)).toInt = (p : ℤ)) (hq : (idx (ix1 1)).toInt = (q : ℤ))
    (a : Fin A) (b : Fin B) (R : Fin H) (C : Fin W) (r : Fin h) (c : Fin w)
    (hr : p + r.val = R.val) (hc : q + c.val = C.val) :
    Host.scatter (winDims A B H W h w wf) f x idx upd (ix4 a b R C) = x (ix4 a b R C) + upd (ix4 a b r c) := by
  refine scatter_add_of_unique _ f hf x idx upd _ (ix4 a b r c) ?_ ?_
  · exact (win_resultIdx?_eq_some wf _ idx p q hp hq _).2 ⟨rfl, rfl, hr, hc⟩
  · intro j hj
    obtain ⟨h0, h1, h2, h3⟩ := (win_resultIdx?_eq_some wf j idx p q hp hq _).1 hj
    rw [eq_ix4 j]
    have e0 : j 0 = a := Fin.ext h0
    have e1 : j 1 = b := Fin.ext h1
    have e2 : j 2 = r := Fin.ext (by
      have : (ix4 a b R C : (⟨4, ![A, B, H, W]⟩ : Shape).Idx) 2 = R := rfl
      rw [this] at h2; omega)
    have e3 : j 3 = c := Fin.ext (by
      have : (ix4 a b R C : (⟨4, ![A, B, H, W]⟩ : Shape).Idx) 3 = C := rfl
      rw [this] at h3; omega)
    rw [e0, e1, e2, e3]
    rfl

/-- THE WINDOW SCATTER READ OUTSIDE THE WINDOW: the operand's entry. -/
theorem win_scatter_outside (f : α → α → α) (hf : ∀ a b, f a b = a + b)
    (x : (⟨4, ![A, B, H, W]⟩ : Shape).Idx → α) (idx : IVec ⟨1, ![2]⟩ n) (upd : (⟨4, ![A, B, h, w]⟩ : Shape).Idx → α)
    (p q : Nat) (hp : (idx (ix1 0)).toInt = (p : ℤ)) (hq : (idx (ix1 1)).toInt = (q : ℤ))
    (a : Fin A) (b : Fin B) (R : Fin H) (C : Fin W)
    (hout : ¬ (p ≤ R.val ∧ R.val < p + h ∧ q ≤ C.val ∧ C.val < q + w)) :
    Host.scatter (winDims A B H W h w wf) f x idx upd (ix4 a b R C) = x (ix4 a b R C) := by
  refine scatter_add_of_none _ f hf x idx upd _ fun j hj => hout ?_
  obtain ⟨-, -, h2, h3⟩ := (win_resultIdx?_eq_some wf j idx p q hp hq _).1 hj
  have e2 : (ix4 a b R C : (⟨4, ![A, B, H, W]⟩ : Shape).Idx) 2 = R := rfl
  have e3 : (ix4 a b R C : (⟨4, ![A, B, H, W]⟩ : Shape).Idx) 3 = C := rfl
  rw [e2] at h2; rw [e3] at h3
  have := (j 2).isLt; have := (j 3).isLt
  have s2 : (⟨4, ![A, B, h, w]⟩ : Shape).size 2 = h := rfl
  have s3 : (⟨4, ![A, B, h, w]⟩ : Shape).size 3 = w := rfl
  refine ⟨by omega, by omega, by omega, by omega⟩

end Win

end Idealize.ShloMosaic.WindowScatter

end
-- ==== Proof.RefValue.lean ====
/-
  The reference's result, read at an entry.

  The reference writes each of its nine updates, moved by `(i, j)`, into a zero plane with a one-entry border
  (nine add-scatters of one whole window each), reads the interior back, and mixes the channels with one matrix
  product. At an interior entry `(R + 1, C + 1)` scatter `(i, j)` adds update `(i, j)`'s entry `(R + 1 - i, C + 1 - j)` when that
  is inside the update and nothing otherwise: tap `(i, j)` of the update. So the folded plane at `(k, R, C)` is the nine-tap
  sum of the planes `w[9k + kk] · x[k, R, C]`, and the result at `(o, R, C)` the sum over `k` of `conv[k, o]` times it.
-/
import proofs.«123624_j27659589386409_1_alg».proof.Proof.RefTaps
import proofs.«123624_j27659589386409_1_alg».proof.Proof.Taps
import proofs.«123624_j27659589386409_1_alg».proof.Proof.LibWindowScatter

set_option maxRecDepth 16384

noncomputable section

namespace Cert.ReferenceIdeal.RefValue

open Cert.ReferenceIdeal Cert.ReferenceIdeal.Gen Cert.ReferenceIdeal.Read Cert.ReferenceIdeal.RefTaps Cert.Taps
open Idealize.ShloMosaic Idealize.ShloMosaic.ValueIdx Idealize.ShloMosaic.WindowScatter

/-- A start index written as two constants joined: its two words. -/
theorem idxPair (a b : BitVec 32) :
    (concatenate S2 0 [⟨S1, broadcastInDim S1 ![] bcast_S_S1 (constantI S_ 32 a)⟩,
        ⟨S1, broadcastInDim S1 ![] bcast_S_S1 (constantI S_ 32 b)⟩] concatenates_S1_S1_S2_d0 : IVec S2 32) (ix1 0) = a
    ∧ (concatenate S2 0 [⟨S1, broadcastInDim S1 ![] bcast_S_S1 (constantI S_ 32 a)⟩,
        ⟨S1, broadcastInDim S1 ![] bcast_S_S1 (constantI S_ 32 b)⟩] concatenates_S1_S1_S2_d0 : IVec S2 32) (ix1 1) = b := by
  constructor
  · exact (concatenate_pair_apply_left (t := S2) (s₁ := S1) (s₂ := S1) (0 : Fin 1) _ _ concatenates_S1_S1_S2_d0 (ix1 0) rfl (ix1 0)
      (fun b => by match b with | ⟨0, _⟩ => rfl)).trans rfl
  · exact (concatenate_pair_apply_right (t := S2) (s₁ := S1) (s₂ := S1) (0 : Fin 1) _ _ concatenates_S1_S1_S2_d0 (ix1 1) rfl rfl (ix1 0)
      (fun b hb => by match b with | ⟨0, _⟩ => exact absurd rfl hb) (by show 0 + 1 = 1; rfl)).trans rfl

variable (x : (⟨S1x64x256x256, .f32⟩ : BufTy).Contents (Elt Ideal)) (w : (⟨S1x576x65536, .f32⟩ : BufTy).Contents (Elt Ideal))
  (cv : (⟨S64x64, .f32⟩ : BufTy).Contents (Elt Ideal))

/-- One window add-scattered at `(p, q)`, read at the interior entry `(R + 1, C + 1)`: what was there plus tap `(p, q)`
    of the window. -/
theorem scatter_tap (prev : S1x64x258x258.Idx → EReal) (idx : IVec S2 32)
    (upd : S1x64x256x256.Idx → EReal) (p q : Nat)
    (hp : (idx (ix1 0)).toInt = (p : ℤ)) (hq : (idx (ix1 1)).toInt = (q : ℤ)) (k : Fin 64) (R C : Fin 256) :
    Host.scatter (α := EReal) scatter_S1x64x258x258_S2_S1x64x256x256_0123_n_23_0 (FloatOps.addf (F := Ideal) (φ := .f32)) prev idx upd
        (ix4 0 k ⟨R.val + 1, by have := R.isLt; omega⟩ ⟨C.val + 1, by have := C.isLt; omega⟩)
      = prev (ix4 0 k ⟨R.val + 1, by have := R.isLt; omega⟩ ⟨C.val + 1, by have := C.isLt; omega⟩)
        + tapVal (fun r c => upd (ix4 0 k r c)) p q R C := by
  unfold tapVal
  split
  · next hh =>
    exact win_scatter_inside (A := 1) (B := 64) (H := 258) (W := 258) (h := 256) (w := 256)
      scatter_S1x64x258x258_S2_S1x64x256x256_0123_n_23_0_wf (FloatOps.addf (F := Ideal) (φ := .f32)) (fun _ _ => rfl) prev idx upd p q hp hq 0 k _ _
      ⟨R.val + 1 - p, by omega⟩ ⟨C.val + 1 - q, by omega⟩
      (by show p + (R.val + 1 - p) = R.val + 1; omega) (by show q + (C.val + 1 - q) = C.val + 1; omega)
  · next hh =>
    rw [add_zero]
    exact win_scatter_outside (A := 1) (B := 64) (H := 258) (W := 258) (h := 256) (w := 256)
      scatter_S1x64x258x258_S2_S1x64x256x256_0123_n_23_0_wf (FloatOps.addf (F := Ideal) (φ := .f32)) (fun _ _ => rfl) prev idx upd p q hp hq 0 k _ _
      (fun h' => hh ⟨⟨h'.1, h'.2.1⟩, h'.2.2.1, h'.2.2.2⟩)

theorem start0 : ((val_main_v28 (F := Ideal)) (ix1 0)).toInt = ((0 : ℕ) : ℤ)
    ∧ ((val_main_v28 (F := Ideal)) (ix1 1)).toInt = ((0 : ℕ) : ℤ) := by
  have h := idxPair 0#32 0#32
  have h0 : (val_main_v28 (F := Ideal)) (ix1 0) = 0#32 := h.1
  have h1 : (val_main_v28 (F := Ideal)) (ix1 1) = 0#32 := h.2
  rw [h0, h1]
  exact ⟨by decide, by decide⟩

theorem start1 : ((val_main_v34 (F := Ideal)) (ix1 0)).toInt = ((0 : ℕ) : ℤ)
    ∧ ((val_main_v34 (F := Ideal)) (ix1 1)).toInt = ((1 : ℕ) : ℤ) := by
  have h := idxPair 0#32 1#32
  have h0 : (val_main_v34 (F := Ideal)) (ix1 0) = 0#32 := h.1
  have h1 : (val_main_v34 (F := Ideal)) (ix1 1) = 1#32 := h.2
  rw [h0, h1]
  exact ⟨by decide, by decide⟩

theorem start2 : ((val_main_v40 (F := Ideal)) (ix1 0)).toInt = ((0 : ℕ) : ℤ)
    ∧ ((val_main_v40 (F := Ideal)) (ix1 1)).toInt = ((2 : ℕ) : ℤ) := by
  have h := idxPair 0#32 2#32
  have h0 : (val_main_v40 (F := Ideal)) (ix1 0) = 0#32 := h.1
  have h1 : (val_main_v40 (F := Ideal)) (ix1 1) = 2#32 := h.2
  rw [h0, h1]
  exact ⟨by decide, by decide⟩

theorem start3 : ((val_main_v46 (F := Ideal)) (ix1 0)).toInt = ((1 : ℕ) : ℤ)
    ∧ ((val_main_v46 (F := Ideal)) (ix1 1)).toInt = ((0 : ℕ) : ℤ) := by
  have h := idxPair 1#32 0#32
  have h0 : (val_main_v46 (F := Ideal)) (ix1 0) = 1#32 := h.1
  have h1 : (val_main_v46 (F := Ideal)) (ix1 1) = 0#32 := h.2
  rw [h0, h1]
  exact ⟨by decide, by decide⟩

theorem start4 : ((val_main_v52 (F := Ideal)) (ix1 0)).toInt = ((1 : ℕ) : ℤ)
    ∧ ((val_main_v52 (F := Ideal)) (ix1 1)).toInt = ((1 : ℕ) : ℤ) := by
  have h := idxPair 1#32 1#32
  have h0 : (val_main_v52 (F := Ideal)) (ix1 0) = 1#32 := h.1
  have h1 : (val_main_v52 (F := Ideal)) (ix1 1) = 1#32 := h.2
  rw [h0, h1]
  exact ⟨by decide, by decide⟩

theorem start5 : ((val_main_v58 (F := Ideal)) (ix1 0)).toInt = ((1 : ℕ) : ℤ)
    ∧ ((val_main_v58 (F := Ideal)) (ix1 1)).toInt = ((2 : ℕ) : ℤ) := by
  have h := idxPair 1#32 2#32
  have h0 : (val_main_v58 (F := Ideal)) (ix1 0) = 1#32 := h.1
  have h1 : (val_main_v58 (F := Ideal)) (ix1 1) = 2#32 := h.2
  rw [h0, h1]
  exact ⟨by decide, by decide⟩

theorem start6 : ((val_main_v64 (F := Ideal)) (ix1 0)).toInt = ((2 : ℕ) : ℤ)
    ∧ ((val_main_v64 (F := Ideal)) (ix1 1)).toInt = ((0 : ℕ) : ℤ) := by
  have h := idxPair 2#32 0#32
  have h0 : (val_main_v64 (F := Ideal)) (ix1 0) = 2#32 := h.1
  have h1 : (val_main_v64 (F := Ideal)) (ix1 1) = 0#32 := h.2
  rw [h0, h1]
  exact ⟨by decide, by decide⟩

theorem start7 : ((val_main_v70 (F := Ideal)) (ix1 0)).toInt = ((2 : ℕ) : ℤ)
    ∧ ((val_main_v70 (F := Ideal)) (ix1 1)).toInt = ((1 : ℕ) : ℤ) := by
  have h := idxPair 2#32 1#32
  have h0 : (val_main_v70 (F := Ideal)) (ix1 0) = 2#32 := h.1
  have h1 : (val_main_v70 (F := Ideal)) (ix1 1) = 1#32 := h.2
  rw [h0, h1]
  exact ⟨by decide, by decide⟩

theorem start8 : ((val_main_v76 (F := Ideal)) (ix1 0)).toInt = ((2 : ℕ) : ℤ)
    ∧ ((val_main_v76 (F := Ideal)) (ix1 1)).toInt = ((2 : ℕ) : ℤ) := by
  have h := idxPair 2#32 2#32
  have h0 : (val_main_v76 (F := Ideal)) (ix1 0) = 2#32 := h.1
  have h1 : (val_main_v76 (F := Ideal)) (ix1 1) = 2#32 := h.2
  rw [h0, h1]
  exact ⟨by decide, by decide⟩

/-- The zero plane the fold starts from. -/
theorem base (i : S1x64x258x258.Idx) : val_main_v23 (F := Ideal) i = 0 := by
  rw [val_main_v23_apply, val_main_cst_apply, Ideal.ofBits_def, Ideal.ofBits_zero_f32]

/-- The weight plane `9k + kk` times the one entry `x[k, R, C]`. -/
abbrev wx (k : Fin 64) (R C : Fin 256) (kk : Fin 9) : Fin 256 → Fin 256 → EReal := fun r c =>
  w (ix3 0 ⟨9 * k.val + kk.val, by have := k.isLt; have := kk.isLt; omega⟩ ⟨256 * r.val + c.val, by have := r.isLt; have := c.isLt; omega⟩)
    * x (ix4 0 k R C)

/-- THE FOLDED PLANE at an interior entry: the nine-tap sum of the weight planes times `x[k, R, C]`. -/
theorem folded (k : Fin 64) (R C : Fin 256) :
    val_main_v77 (F := Ideal) x w (ix4 0 k ⟨R.val + 1, by have := R.isLt; omega⟩ ⟨C.val + 1, by have := C.isLt; omega⟩)
      = nineTaps (wx x w k R C) R C := by
  unfold val_main_v77
  rw [scatter_tap _ _ _ 2 2 start8.1 start8.2 k R C]
  unfold val_main_v71
  rw [scatter_tap _ _ _ 2 1 start7.1 start7.2 k R C]
  unfold val_main_v65
  rw [scatter_tap _ _ _ 2 0 start6.1 start6.2 k R C]
  unfold val_main_v59
  rw [scatter_tap _ _ _ 1 2 start5.1 start5.2 k R C]
  unfold val_main_v53
  rw [scatter_tap _ _ _ 1 1 start4.1 start4.2 k R C]
  unfold val_main_v47
  rw [scatter_tap _ _ _ 1 0 start3.1 start3.2 k R C]
  unfold val_main_v41
  rw [scatter_tap _ _ _ 0 2 start2.1 start2.2 k R C]
  unfold val_main_v35
  rw [scatter_tap _ _ _ 0 1 start1.1 start1.2 k R C]
  unfold val_main_v29
  rw [scatter_tap _ _ _ 0 0 start0.1 start0.2 k R C]
  rw [base]
  rw [tapVal_congr (fun r c => val_main_v25 (F := Ideal) x w (ix4 0 k r c)) (wx x w k R C ⟨0, by decide⟩) 0 0 R C
    (fun r c hr hc => upd0 x w k R C r c hr hc)]
  rw [tapVal_congr (fun r c => val_main_v31 (F := Ideal) x w (ix4 0 k r c)) (wx x w k R C ⟨1, by decide⟩) 0 1 R C
    (fun r c hr hc => upd1 x w k R C r c hr hc)]
  rw [tapVal_congr (fun r c => val_main_v37 (F := Ideal) x w (ix4 0 k r c)) (wx x w k R C ⟨2, by decide⟩) 0 2 R C
    (fun r c hr hc => upd2 x w k R C r c hr hc)]
  rw [tapVal_congr (fun r c => val_main_v43 (F := Ideal) x w (ix4 0 k r c)) (wx x w k R C ⟨3, by decide⟩) 1 0 R C
    (fun r c hr hc => upd3 x w k R C r c hr hc)]
  rw [tapVal_congr (fun r c => val_main_v49 (F := Ideal) x w (ix4 0 k r c)) (wx x w k R C ⟨4, by decide⟩) 1 1 R C
    (fun r c hr hc => upd4 x w k R C r c hr hc)]
  rw [tapVal_congr (fun r c => val_main_v55 (F := Ideal) x w (ix4 0 k r c)) (wx x w k R C ⟨5, by decide⟩) 1 2 R C
    (fun r c hr hc => upd5 x w k R C r c hr hc)]
  rw [tapVal_congr (fun r c => val_main_v61 (F := Ideal) x w (ix4 0 k r c)) (wx x w k R C ⟨6, by decide⟩) 2 0 R C
    (fun r c hr hc => upd6 x w k R C r c hr hc)]
  rw [tapVal_congr (fun r c => val_main_v67 (F := Ideal) x w (ix4 0 k r c)) (wx x w k R C ⟨7, by decide⟩) 2 1 R C
    (fun r c hr hc => upd7 x w k R C r c hr hc)]
  rw [tapVal_congr (fun r c => val_main_v73 (F := Ideal) x w (ix4 0 k r c)) (wx x w k R C ⟨8, by decide⟩) 2 2 R C
    (fun r c hr hc => upd8 x w k R C r c hr hc)]
  rfl

/-- THE REFERENCE'S RESULT at an entry. -/
theorem ref_apply (o : Fin 64) (R C : Fin 256) :
    val_main_v81 (F := Ideal) x w cv (ix4 0 o R C) = ∑ k : Fin 64, cv (ix2 k o) * nineTaps (wx x w k R C) R C := by
  have ho := o.isLt; have hR := R.isLt; have hC := C.isLt
  rw [val_main_v81_apply, val_main_v80_apply]
  refine Finset.sum_congr rfl fun k _ => ?_
  have hk := k.isLt
  rw [val_main_v79_apply, val_main_v78_apply]
  have e1 : lidx_main_v80 (idx_main_v81 (ix4 0 o R C)) k = ix2 k o := funext fun a => Fin.ext (by
    match a with
    | ⟨0, _⟩ => rfl
    | ⟨1, _⟩ => show (((0 * 64 + o.val) * 256 + R.val) * 256 + C.val) / 65536 = o.val; omega)
  have e2 : idx_main_v78 (idx_main_v79 (ridx_main_v80 (idx_main_v81 (ix4 0 o R C)) k))
      = ix4 0 k ⟨R.val + 1, by omega⟩ ⟨C.val + 1, by omega⟩ := funext fun a => Fin.ext (by
    match a with
    | ⟨0, _⟩ => rfl
    | ⟨1, _⟩ => show (k.val * 65536 + (((0 * 64 + o.val) * 256 + R.val) * 256 + C.val) % 65536) / 65536 % 64 = k.val; omega
    | ⟨2, _⟩ => show 1 + (k.val * 65536 + (((0 * 64 + o.val) * 256 + R.val) * 256 + C.val) % 65536) / 256 % 256 = R.val + 1; omega
    | ⟨3, _⟩ => show 1 + (k.val * 65536 + (((0 * 64 + o.val) * 256 + R.val) * 256 + C.val) % 65536) % 256 = C.val + 1; omega)
  rw [e1, e2, folded]

end Cert.ReferenceIdeal.RefValue

end
-- ==== Proof.Finite.lean ====
/-
  Finite inputs are reals.

  The precondition says, of each of the three argument arrays, that every entry's absolute value compares below
  +infinity. On the extended reals that leaves exactly the real numbers: the two infinities have absolute value
  +infinity. The distributive step of the bridge is taken on reals, so this is where the precondition is used.
-/
import proofs.«123624_j27659589386409_1_alg».proof.Pre_finite_inputs
import proofs.«123624_j27659589386409_1_alg».proof.Proof.Gen.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

/-- An extended real whose absolute value is below +infinity is a real. -/
theorem real_of_abs_lt (x : EReal)
    (h : Ideal.cmp .olt (max x (-x)) (Ideal.ofBits .f32 0x7F800000#32) = 1#1) : ∃ y : ℝ, x = (y : EReal) := by
  rw [ofBits_inf] at h
  induction x using EReal.rec with
  | bot => exfalso; simp [Ideal.cmp] at h
  | coe y => exact ⟨y, rfl⟩
  | top => exfalso; simp [Ideal.cmp] at h

/-- Under the precondition every entry of every argument array is a real. -/
theorem reals_of_pre (a0 : FVec Ideal S1x64x256x256 .f32) (a1 : FVec Ideal S1x576x65536 .f32) (a2 : FVec Ideal S64x64 .f32)
    (h : Cert.Pre_finite_inputs.fn (F := Ideal) a0 a1 a2 = fun _ => 1#1) :
    (∀ i, ∃ y : ℝ, a0 i = (y : EReal)) ∧ (∀ i, ∃ y : ℝ, a1 i = (y : EReal)) ∧ (∀ i, ∃ y : ℝ, a2 i = (y : EReal)) := by
  have h0 := congrFun h ValueIdx.ix0
  dsimp only [Cert.Pre_finite_inputs.fn] at h0
  obtain ⟨h01, h2⟩ := IntOp.andi_eq_one.1 h0
  obtain ⟨hA, hB⟩ := IntOp.andi_eq_one.1 h01
  refine ⟨fun i => ?_, fun i => ?_, fun i => ?_⟩
  · exact real_of_abs_lt _ (Host.reduce_andi_all _ _ _ _ ValueIdx.ix0 hA i)
  · exact real_of_abs_lt _ (Host.reduce_andi_all _ _ _ _ ValueIdx.ix0 hB i)
  · exact real_of_abs_lt _ (Host.reduce_andi_all _ _ _ _ ValueIdx.ix0 h2 i)

end Cert.Finite

end
-- ==== Proof.lean ====
/-
  A reverberation layer: unfold, multiply by weights, fold, then mix the channels.

  The reference cuts the nine one-entry shifts of the zero-padded 256×256 planes of `x` (unfold), multiplies each by
  its own weight plane, adds the nine products back into a padded plane each at its own shift and keeps the interior
  (fold), and multiplies by the 64×64 mixing matrix. Unfold and fold use the same nine offsets, so in the folded
  plane entry `(R, C)` of channel `k` only ever meets `x[k, R, C]`: it is the sum, over the taps `(i, j)` whose source
  `(R + 1 - i, C + 1 - j)` lies inside the plane, of `w[9k + 3i + j][R + 1 - i, C + 1 - j] · x[k, R, C]`.
  The kernel computes that plane in one launch as `x[k, R, C]` times the sum of the nine weight planes each shifted by
  one entry or none (zeros moving in at the border), and mixes the channels in a second launch.
  On the extended reals the two agree by one distributive step — a factor times a nine-term sum against the sum of the
  nine products — which holds because the inputs are finite; everything else is re-indexing. The matrix products on the two sides
  contract the same axes and need no law at all.
-/
import proofs.«123624_j27659589386409_1_alg».proof.Defs
import proofs.«123624_j27659589386409_1_alg».proof.Proof.Gen.Kernel
import proofs.«123624_j27659589386409_1_alg».proof.Proof.Gen.Kernel.Skeleton
import proofs.«123624_j27659589386409_1_alg».proof.Proof.Gen.Kernel.Launch
import proofs.«123624_j27659589386409_1_alg».proof.Proof.Gen.Kernel.Points
import proofs.«123624_j27659589386409_1_alg».proof.Proof.Gen.Kernel.Frame
import proofs.«123624_j27659589386409_1_alg».proof.Proof.Gen.KernelIdeal
import proofs.«123624_j27659589386409_1_alg».proof.Proof.Gen.KernelIdeal.Skeleton
import proofs.«123624_j27659589386409_1_alg».proof.Proof.Gen.KernelIdeal.Launch
import proofs.«123624_j27659589386409_1_alg».proof.Proof.Gen.KernelIdeal.Points
import proofs.«123624_j27659589386409_1_alg».proof.Proof.Gen.KernelIdeal.Frame
import proofs.«123624_j27659589386409_1_alg».proof.Proof.Gen.ReferenceIdeal
import proofs.«123624_j27659589386409_1_alg».proof.Proof.Gen.Pre_finite_inputs
import proofs.«123624_j27659589386409_1_alg».proof.Proof.RefRun
import proofs.«123624_j27659589386409_1_alg».proof.Proof.RefRead
import proofs.«123624_j27659589386409_1_alg».proof.Proof.KValue
import proofs.«123624_j27659589386409_1_alg».proof.Proof.RefValue
import proofs.«123624_j27659589386409_1_alg».proof.Proof.Finite
import Idealize.ShloMosaic.Adequacy
import Idealize.ShloMosaic.Init

noncomputable section

namespace Cert.Proof

open Idealize.ShloMosaic Idealize.ShloMosaic.ValueIdx Idealize.SL.Sem Cert.Taps

/-- The reference's result and the kernel's are one function of finite arguments: entry by entry both are the sum
    over the channels of the mixing matrix's entry times the folded plane's, and the folded plane's two spellings
    differ by the distributive law on reals. -/
theorem result_eq (x : Cert.KernelIdeal.S1x64x256x256.Idx → EReal) (w : Cert.KernelIdeal.S1x576x65536.Idx → EReal)
    (cv : Cert.KernelIdeal.S64x64.Idx → EReal)
    (hx : ∀ i, ∃ y : ℝ, x i = (y : EReal)) (hw : ∀ i, ∃ y : ℝ, w i = (y : EReal)) :
    Cert.ReferenceIdeal.Read.val_main_v81 (F := Ideal) x w cv = Cert.KernelIdeal.Whole.K x w cv := by
  funext i
  obtain ⟨a, o, R, C, rfl⟩ : ∃ (a : Fin 1) (o : Fin 64) (R C : Fin 256), i = ix4 a o R C :=
    ⟨i 0, i 1, i 2, i 3, eq_ix4 i⟩
  obtain rfl : a = 0 := Subsingleton.elim _ _
  refine (Cert.ReferenceIdeal.RefValue.ref_apply x w cv o R C).trans ?_
  refine Eq.trans ?_ (Cert.KernelIdeal.Whole.K_apply x w cv o R C).symm
  refine Finset.sum_congr rfl fun k _ => ?_
  refine congrArg (cv (ix2 k o) * ·) ?_
  exact (mul_nineTaps (x (ix4 0 k R C)) (Cert.KernelIdeal.Whole.wplane w k) R C (hx _) (fun kk r c => hw _)).symm

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at `K` of the arguments: the kernel by its run read through its two launches, the
    reference by its run read back and `result_eq`, the finiteness of the arguments read off the precondition. -/
theorem algebraic : Cert.algebraic_KernelIdeal_ReferenceIdeal := by
  intro m ρ m' ρ' hpre hagree
  refine ⟨fun c => Cert.KernelIdeal.Whole.K
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.result_eq m ρ c), (h c).2⟩)
      (Cert.KernelIdeal.Run.run m ρ)
  · refine (θ_run Cert.ReferenceIdeal.defs _ _).mono (fun r h c => ⟨(h c).1.trans ?_, (h c).2⟩)
      (Cert.ReferenceIdeal.Value.run (F := Ideal) m' ρ')
    obtain ⟨hx, hw, -⟩ := Cert.Finite.reals_of_pre _ _ _ (hpre c)
    rw [Cert.ReferenceIdeal.Read.val_main_v81_eq, (hagree c).1, (hagree c).2.1, (hagree c).2.2]
    exact result_eq _ _ _ hx hw

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
